-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S400x10000, .f32⟩
  | .local _ .vmem, ⟨6, _⟩ => ⟨S400x10000, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | .local _ .vmem, ⟨10, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelConds.lean ====
/-
  The grid is 2 × 25, walked phase-major: point t has phase t / 25 and row-block t % 25.
  The body has three guarded parts. The first (phase 0 and block 0) holds at point 0 only; the second
  (phase 0) at the points below 25; the third (phase 1) from point 25 on. The output window is touched by
  the third part alone, so it is idle through phase 0 and written back at exactly the points of phase 1.
  Also named here: the staging memref each window is on at a point, the two scratch buffers, and the
  region's invariant opened into "each scratch at some contents, the generator at some state".
-/
import proofs.«154731_g28501402976259_cont_9to1_647_16_alg».proof.Proof.Gen.Kernel.Frame
import proofs.«154731_g28501402976259_cont_9to1_647_16_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three guards, as functions of the grid coordinates -/

/-- Phase 0 and row-block 0 together: the guard of the part that fills the first scratch. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 and nowhere else. -/
theorem condFirst_iff : ∀ t : Fin cfg0.N, condFirst (grid0.coords t) ↔ t.val = 0 :=
  (by decide +kernel : ∀ t : Fin grid0.N, condFirst (grid0.coords t) ↔ t.val = 0)

/-- Phase 0: the guard of the part that fills one band of 400 rows of the second scratch. -/
abbrev condPhase0 (i : grid0.Coords) : Prop := k0_cond2 i = 1#1
theorem condPhase0_iff : ∀ t : Fin cfg0.N, condPhase0 (grid0.coords t) ↔ t.val < 25 :=
  (by decide +kernel : ∀ t : Fin grid0.N, condPhase0 (grid0.coords t) ↔ t.val < 25)

/-- Phase 1: the guard of the part that stores the output block. -/
abbrev condPhase1 (i : grid0.Coords) : Prop := k0_cond3 i = 1#1
theorem condPhase1_iff : ∀ t : Fin cfg0.N, condPhase1 (grid0.coords t) ↔ 25 ≤ t.val :=
  (by decide +kernel : ∀ t : Fin grid0.N, condPhase1 (grid0.coords t) ↔ 25 ≤ t.val)

/-- The band of the second scratch that a phase-0 point fills starts at row 400 · (row-block). -/
theorem bandRow : ∀ t : Fin cfg0.N, k0_off1 (grid0.coords t) = ![400 * (t.val % 25), 0] :=
  (by decide +kernel : ∀ t : Fin grid0.N, k0_off1 (grid0.coords t) = ![400 * (t.val % 25), 0])

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly through phase 0. -/
theorem idle6_iff : ∀ t : Fin cfg0.N, cfg0.idle 6 (grid0.coords t) = true ↔ t.val < 25 :=
  (by decide +kernel : ∀ t : Fin grid0.N, cfg0.idle 6 (grid0.coords t) = true ↔ t.val < 25)
/-- The output block is written back exactly at the points of phase 1 (its block index p · i moves at each). -/
theorem flush6_iff : ∀ t : Fin cfg0.N, (cfg0.win 6).flush t = true ↔ 25 ≤ t.val :=
  (by decide +kernel : ∀ t : Fin grid0.N, win0_6.flush t = true ↔ 25 ≤ t.val)
/-- At a phase-1 point the output window is on block (point − 25), rows 400 · (point − 25) onward. -/
theorem outIndex : ∀ t : Fin cfg0.N, 25 ≤ t.val → (cfg0.win 6).index t (0 : Fin 2) = t.val - 25 ∧ (cfg0.win 6).index t (1 : Fin 2) = 0 :=
  (by decide +kernel : ∀ t : Fin grid0.N, 25 ≤ t.val → win0_6.index t (0 : Fin 2) = t.val - 25 ∧ win0_6.index t (1 : Fin 2) = 0)

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
/-- The two scratch buffers: the first holds x·W1 + b1, the second is filled band by band through phase 0. -/
abbrev scH : Memref sig .tc .vmem S10000x128 .f32 := Memref.whole cc0_scratch0
abbrev scAgg : Memref sig .tc .vmem S10000x128 .f32 := Memref.whole cc0_scratch1

/-- What the region hands the body before its first point: each scratch at some contents, the generator at some state. -/
theorem PhiA_open (c : Dev nD) :
    (Pipeline.ΦA spec0 c : sProp 𝕄)
      = iprop(iprop((∃ d, owns (c : Thread nD τ) scH fullShare d) ∗ (∃ d, owns (c : Thread nD τ) scAgg fullShare d)) ∗ (∃ r, prngReg c r)) := by
  unfold Pipeline.ΦA; rw [scopedRest0_eq]; simp only [scH, scAgg, owns_whole]; try rfl

end Cert.Kernel.Body

end
-- ==== Proof.KernelRunFirst.lean ====
/-
  The body at the grid's first point (phase 0, row-block 0). It stores x·W1 + b1 over the whole first scratch,
  reads it back, and stores rows 0 … 399 of relu(Adj·h)·W2 + b2 into the second scratch, whose other rows
  keep what they held (`xa`). The output's buffer is not touched. The pieces each scratch ends with are found
  by running the body.
-/
import proofs.«154731_g28501402976259_cont_9to1_647_16_alg».proof.Proof.KernelConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the first scratch ends with its pieces `LH` written over anything, the second with its
    pieces `LA` written over the contents `xa` it was handed; the inputs unchanged. -/
noncomputable def runFirst (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : condFirst i) (hc1 : condPhase0 i) (hc2 : ¬condPhase1 i)
    (x0 : Vec F S10000x128 .f32) (x1 : Vec F S128x128 .f32) (x2 : Vec F S1x128 .f32) (x3 : Vec F S128x128 .f32) (x4 : Vec F S1x128 .f32) (x5 : Vec F S400x10000 .f32) (xa : Vec F S10000x128 .f32) :
    Σ' (LH : List (View.Piece (Elt F) S10000x128 .f32)), { LA : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ owns (c : Thread nD τ) arg10 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f LH) ∗ (arg10.view.loc (c : Thread nD τ) ↦[arg10.view.set]{fullShare} arg10.view.writes (Elt F) (harg10.unread xa) LA)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dh, %fh, -, HH⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfa
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HH]; · iexists _; iexact HH
    iexact HA

end Cert.Kernel.Body

end
-- ==== Proof.KernelRunBand.lean ====
/-
  The body at a later point of phase 0 (row-block i, 0 < i < 25). The first scratch holds `xh` and is only read;
  rows 400·i … 400·i + 399 of the second scratch are stored, its other rows keep what they held (`xa`).
  The output's buffer is not touched.
-/
import proofs.«154731_g28501402976259_cont_9to1_647_16_alg».proof.Proof.KernelRunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later phase-0 point: the second scratch ends with its pieces `LA` written over the contents `xa` it was handed;
    the inputs and the first scratch unchanged. -/
noncomputable def runBand (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬condFirst i) (hc1 : condPhase0 i) (hc2 : ¬condPhase1 i)
    (x0 : Vec F S10000x128 .f32) (x1 : Vec F S128x128 .f32) (x2 : Vec F S1x128 .f32) (x3 : Vec F S128x128 .f32) (x4 : Vec F S1x128 .f32) (x5 : Vec F S400x10000 .f32) (xh xa : Vec F S10000x128 .f32) :
    { LA : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xh ∗ owns (c : Thread nD τ) arg10 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xh ∗ (arg10.view.loc (c : Thread nD τ) ↦[arg10.view.set]{fullShare} arg10.view.writes (Elt F) (harg10.unread xa) LA)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fh, %hfh, HH⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfh; obtain rfl := harg10.eq_unread hfa
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HH]
    · iexists _; isplitr; · ipureintro; exact harg9.read_unread _
      iexact HH
    iexact HA

end Cert.Kernel.Body

end
-- ==== Proof.KernelRunOut.lean ====
/-
  The body at a point of phase 1 (row-block i). Both scratch buffers are only read (`xh`, `xa`); the whole
  output block is stored: rows 400·i … 400·i + 399 of Adj times the second scratch.
-/
import proofs.«154731_g28501402976259_cont_9to1_647_16_alg».proof.Proof.KernelRunBand

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A phase-1 point: the output's staging buffer ends with its pieces `LO` written over anything; the inputs and both
    scratch buffers unchanged. -/
noncomputable def runOut (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬condFirst i) (hc1 : ¬condPhase0 i) (hc2 : condPhase1 i)
    (x0 : Vec F S10000x128 .f32) (x1 : Vec F S128x128 .f32) (x2 : Vec F S1x128 .f32) (x3 : Vec F S128x128 .f32) (x4 : Vec F S1x128 .f32) (x5 : Vec F S400x10000 .f32) (xh xa : Vec F S10000x128 .f32) :
    { LO : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xh ∗ owns (c : Thread nD τ) arg10 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ owns (c : Thread nD τ) arg9 fullShare xh ∗ owns (c : Thread nD τ) arg10 fullShare xa) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fh, %hfh, HH⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfh; obtain rfl := harg10.eq_unread hfa
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HH]
    · iexists _; isplitr; · ipureintro; exact harg9.read_unread _
      iexact HH
    iexists _; isplitr; · ipureintro; exact harg10.read_unread _
    iexact HA

end Cert.Kernel.Body

end
-- ==== Proof.KernelPieces.lean ====
/-
  What the found pieces are, as values of the blocks the body loaded.
  A store through the whole rectangle leaves its payload, whatever the buffer held. A store of one band of 400 rows
  leaves the payload on that band and the earlier contents on every other row. Every load is through the whole
  rectangle of a buffer held whole, so it reads the buffer's contents; the first point's read-back of the first
  scratch reads what was just stored there.
-/
import proofs.«154731_g28501402976259_cont_9to1_647_16_alg».proof.Proof.KernelRunOut
import Idealize.ShloMosaic.Lib.Pipeline.Value
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOff : (![0, 0] : Fin 2 → Nat) = fun _ => 0 := funext fun a => by fin_cases a <;> rfl

/-- The first point leaves x·W1 + b1 in the first scratch: one store through the whole rectangle. -/
theorem first_h (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : condFirst i) (hc1 : condPhase0 i) (hc2 : ¬condPhase1 i)
    (x0 : Vec F S10000x128 .f32) (x1 : Vec F S128x128 .f32) (x2 : Vec F S1x128 .f32) (x3 : Vec F S128x128 .f32) (x4 : Vec F S1x128 .f32) (x5 : Vec F S400x10000 .f32) (xa : Vec F S10000x128 .f32) (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 arg10 harg10 hc0 hc1 hc2 x0 x1 x2 x3 x4 x5 xa).1) = k0_pay1 x0 x1 x2 := by
  rw [View.read_writes_eq_canon _ _ _ (View.cover_of_tiledL _ S10000x128.size (by sl_kernel_rfl))]
  unfold runFirst
  dsimp only
  sl_unfold_words
  rw [View.canon_unit_zero zeroOff]
  simp only [View.readAt_eq_ld, harg2.read_unread, harg3.read_unread, harg4.read_unread,
    View.ld_unit_zero (S := S10000x128) zeroOff, View.ld_unit_zero (S := S128x128) zeroOff, View.ld_unit_zero (S := S1x128) zeroOff]

/-- A phase-1 point leaves Adj-block · (second scratch) in the output's buffer: one store through the whole rectangle. -/
theorem out_block (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬condFirst i) (hc1 : ¬condPhase0 i) (hc2 : condPhase1 i)
    (x0 : Vec F S10000x128 .f32) (x1 : Vec F S128x128 .f32) (x2 : Vec F S1x128 .f32) (x3 : Vec F S128x128 .f32) (x4 : Vec F S1x128 .f32) (x5 : Vec F S400x10000 .f32) (xh xa : Vec F S10000x128 .f32) (f : arg8.view.ty.Contents (Elt F)) :
    arg8.view.read (Elt F) (arg8.view.writes (Elt F) f (runOut c i arg2 harg2 arg3 harg3 arg4 harg4 arg5 harg5 arg6 harg6 arg7 harg7 arg8 harg8 arg9 harg9 arg10 harg10 hc0 hc1 hc2 x0 x1 x2 x3 x4 x5 xh xa).1) = k0_pay3 x5 xa := by
  rw [View.read_writes_eq_canon _ _ _ (View.cover_of_tiledL _ S400x128.size (by sl_kernel_rfl))]
  unfold runOut
  dsimp only
  rw [View.canon_unit_zero zeroOff]
  simp only [View.readAt_eq_ld, harg7.read_unread, harg10.read_unread,
    View.ld_unit_zero (S := S400x10000) zeroOff, View.ld_unit_zero (S := S10000x128) zeroOff]

/-- A later phase-0 point leaves, in the second scratch, its band's payload on rows o … o + 399 (o = 400 · row-block)
    and the handed contents `xa` on every other row. -/
theorem band_agg (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬condFirst i) (hc1 : condPhase0 i) (hc2 : ¬condPhase1 i)
    (x0 : Vec F S10000x128 .f32) (x1 : Vec F S128x128 .f32) (x2 : Vec F S1x128 .f32) (x3 : Vec F S128x128 .f32) (x4 : Vec F S1x128 .f32) (x5 : Vec F S400x10000 .f32) (xh xa : Vec F S10000x128 .f32) (o : ℕ) (ho : k0_off1 i = ![o, 0]) (y : S10000x128.Idx) :
    arg10.view.read (Elt F) (arg10.view.writes (Elt F) (harg10.unread xa) (runBand c i arg2 harg2 arg3 harg3 arg4 harg4 arg5 harg5 arg6 harg6 arg7 harg7 arg8 harg8 arg9 harg9 arg10 harg10 hc0 hc1 hc2 x0 x1 x2 x3 x4 x5 xh xa).1) y
      = if h : o ≤ (y (0 : Fin 2)).val ∧ (y (0 : Fin 2)).val < o + 400 then
          k0_pay2 x5 xh x3 x4 (Rect.unitLocal (s := S10000x128) (off := ![o, 0]) (size := S400x128.size) y (Rect.unit_rows_mem y rfl rfl h))
        else xa y := by
  unfold runBand
  dsimp only
  rw [View.read_writes_cons_rows (v := arg10.view) (f := harg10.unread xa) (W := 400) _ _ [] y ho (show S400x128.size (0 : Fin 2) = 400 from rfl) rfl]
  simp only [View.readAt_eq_ld, harg5.read_unread, harg6.read_unread, harg7.read_unread, harg9.read_unread,
    View.ld_unit_zero (S := S400x10000) zeroOff, View.ld_unit_zero (S := S10000x128) zeroOff,
    View.ld_unit_zero (S := S128x128) zeroOff, View.ld_unit_zero (S := S1x128) zeroOff,
    View.writes_nil, harg10.read_unread]

/-- The first point leaves, in the second scratch, its band's payload — computed from the x·W1 + b1 it has just
    stored and read back — on rows o … o + 399 and the handed contents `xa` on every other row. -/
theorem first_agg (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : condFirst i) (hc1 : condPhase0 i) (hc2 : ¬condPhase1 i)
    (x0 : Vec F S10000x128 .f32) (x1 : Vec F S128x128 .f32) (x2 : Vec F S1x128 .f32) (x3 : Vec F S128x128 .f32) (x4 : Vec F S1x128 .f32) (x5 : Vec F S400x10000 .f32) (xa : Vec F S10000x128 .f32) (o : ℕ) (ho : k0_off1 i = ![o, 0]) (y : S10000x128.Idx) :
    arg10.view.read (Elt F) (arg10.view.writes (Elt F) (harg10.unread xa) (runFirst c i arg2 harg2 arg3 harg3 arg4 harg4 arg5 harg5 arg6 harg6 arg7 harg7 arg8 harg8 arg9 harg9 arg10 harg10 hc0 hc1 hc2 x0 x1 x2 x3 x4 x5 xa).2.1) y
      = if h : o ≤ (y (0 : Fin 2)).val ∧ (y (0 : Fin 2)).val < o + 400 then
          k0_pay2 x5 (k0_pay1 x0 x1 x2) x3 x4 (Rect.unitLocal (s := S10000x128) (off := ![o, 0]) (size := S400x128.size) y (Rect.unit_rows_mem y rfl rfl h))
        else xa y := by
  unfold runFirst
  dsimp only
  rw [View.read_writes_cons_rows (v := arg10.view) (f := harg10.unread xa) (W := 400) _ _ [] y ho (show S400x128.size (0 : Fin 2) = 400 from rfl) rfl]
  sl_unfold_words
  simp only [View.readCov_unit_zero (S := S10000x128) _ zeroOff,
    View.readAt_eq_ld, harg2.read_unread, harg3.read_unread, harg4.read_unread, harg5.read_unread, harg6.read_unread, harg7.read_unread,
    View.ld_unit_zero (S := S400x10000) zeroOff, View.ld_unit_zero (S := S10000x128) zeroOff,
    View.ld_unit_zero (S := S128x128) zeroOff, View.ld_unit_zero (S := S1x128) zeroOff,
    View.writes_nil, harg10.read_unread]

end Cert.Kernel.Body

end
-- ==== Proof.KernelBody.lean ====
/-
  The run of the whole grid, with what the kernel carries between points named.
  After point 0 the first scratch holds h = x·W1 + b1 and never changes. Through phase 0 the second scratch is filled
  one band of 400 rows per point: before point n every band below min(n, 25) holds relu(Adj-band · h)·W2 + b2, the
  other rows whatever they held. From point 25 on all 25 bands are filled, so its contents are one function of the
  arguments, and the point's output block is Adj-band · (that function). The output window is idle through phase 0 and
  written back at each point of phase 1.
-/
import proofs.«154731_g28501402976259_cont_9to1_647_16_alg».proof.Proof.KernelPieces
import Idealize.ShloMosaic.Lib.Pipeline.Value
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- The grid's first point. -/
def pt0 : Fin cfg0.N := ⟨0, by rw [N50]; decide⟩

/-! ## What the scratch buffers and the output block hold -/

/-- h = x·W1 + b1, from the blocks the first point loads. -/
def hVal (c : Dev nD) : Vec F S10000x128 .f32 := k0_pay1 (iblk m c 0 pt0) (iblk m c 1 pt0) (iblk m c 2 pt0)

/-- Band t of the second scratch: relu(Adj-band t · h)·W2 + b2, 400 rows. -/
def bandVal (c : Dev nD) (t : Fin cfg0.N) : Vec F S400x128 .f32 := k0_pay2 (iblk m c 5 t) (hVal m c) (iblk m c 3 t) (iblk m c 4 t)

/-- The bands below k (and below 25) of `d` hold their values. -/
def AggOK (c : Dev nD) (k : ℕ) (d : Vec F S10000x128 .f32) : Prop :=
  ∀ (t : Fin cfg0.N), t.val < k → t.val < 25 → ∀ (y : S10000x128.Idx) (h : 400 * t.val ≤ (y (0 : Fin 2)).val ∧ (y (0 : Fin 2)).val < 400 * t.val + 400),
    d y = bandVal m c t (Rect.unitLocal (s := S10000x128) (off := ![400 * t.val, 0]) (size := S400x128.size) y (Rect.unit_rows_mem y rfl rfl h))

/-- The band a row lies in. -/
def bandOf (y : S10000x128.Idx) : Fin cfg0.N := ⟨(y (0 : Fin 2)).val / 400, by
  have : (y (0 : Fin 2)).val < 10000 := (y (0 : Fin 2)).isLt
  rw [N50]; omega⟩

theorem bandOf_lt (y : S10000x128.Idx) : (bandOf y).val < 25 := by
  have : (y (0 : Fin 2)).val < 10000 := (y (0 : Fin 2)).isLt
  show (y (0 : Fin 2)).val / 400 < 25; omega

theorem bandOf_mem (y : S10000x128.Idx) : 400 * (bandOf y).val ≤ (y (0 : Fin 2)).val ∧ (y (0 : Fin 2)).val < 400 * (bandOf y).val + 400 := by
  show 400 * ((y (0 : Fin 2)).val / 400) ≤ (y (0 : Fin 2)).val ∧ (y (0 : Fin 2)).val < 400 * ((y (0 : Fin 2)).val / 400) + 400
  omega

/-- The second scratch once every band is filled: row r holds band r / 400 at row r % 400. -/
def aggFull (c : Dev nD) : Vec F S10000x128 .f32 := fun y =>
  bandVal m c (bandOf y) (Rect.unitLocal (s := S10000x128) (off := ![400 * (bandOf y).val, 0]) (size := S400x128.size) y (Rect.unit_rows_mem y rfl rfl (bandOf_mem y)))

/-- Contents whose 25 bands all hold their values are that function. -/
theorem agg_full_of_ok (c : Dev nD) (k : ℕ) (hk : 25 ≤ k) (d : Vec F S10000x128 .f32) (h : AggOK m c k d) : d = aggFull m c :=
  funext fun y => h (bandOf y) (lt_of_lt_of_le (bandOf_lt y) hk) (bandOf_lt y) y (bandOf_mem y)

/-- Past phase 0 no band is added. -/
theorem aggOK_past (c : Dev nD) (k : ℕ) (d : Vec F S10000x128 .f32) (hk : 25 ≤ k) (h : AggOK m c k d) : AggOK m c (k + 1) d :=
  fun t _ h25 y hy => h t (lt_of_lt_of_le h25 hk) h25 y hy

/-- A phase-1 point's output block: Adj-band · (the filled second scratch). -/
def outVal (c : Dev nD) (t : Fin cfg0.N) : Vec F S400x128 .f32 := k0_pay3 (iblk m c 5 t) (aggFull m c)

/-! ## The body's runs at a point -/

abbrev firstAt (c : Dev nD) (t : Fin cfg0.N) (hc0 : condFirst (grid0.coords t)) (hc1 : condPhase0 (grid0.coords t)) (hc2 : ¬condPhase1 (grid0.coords t)) (da : Vec F S10000x128 .f32) :=
  runFirst c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scAgg (Memref.isWhole_whole _) hc0 hc1 hc2 (iblk m c 0 t) (iblk m c 1 t) (iblk m c 2 t) (iblk m c 3 t) (iblk m c 4 t) (iblk m c 5 t) da
abbrev bandAt (c : Dev nD) (t : Fin cfg0.N) (hc0 : ¬condFirst (grid0.coords t)) (hc1 : condPhase0 (grid0.coords t)) (hc2 : ¬condPhase1 (grid0.coords t)) (dh da : Vec F S10000x128 .f32) :=
  runBand c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scAgg (Memref.isWhole_whole _) hc0 hc1 hc2 (iblk m c 0 t) (iblk m c 1 t) (iblk m c 2 t) (iblk m c 3 t) (iblk m c 4 t) (iblk m c 5 t) dh da
abbrev outAt (c : Dev nD) (t : Fin cfg0.N) (hc0 : ¬condFirst (grid0.coords t)) (hc1 : ¬condPhase0 (grid0.coords t)) (hc2 : condPhase1 (grid0.coords t)) (dh da : Vec F S10000x128 .f32) :=
  runOut c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scAgg (Memref.isWhole_whole _) hc0 hc1 hc2 (iblk m c 0 t) (iblk m c 1 t) (iblk m c 2 t) (iblk m c 3 t) (iblk m c 4 t) (iblk m c 5 t) dh da

/-- After the first point band 0 is filled. -/
theorem aggOK_first (c : Dev nD) (hc0 : condFirst (grid0.coords pt0)) (hc1 : condPhase0 (grid0.coords pt0)) (hc2 : ¬condPhase1 (grid0.coords pt0)) (da : Vec F S10000x128 .f32) :
    AggOK m c 1 (scAgg.view.read (Elt F) (scAgg.view.writes (Elt F) ((Memref.isWhole_whole cc0_scratch1).unread da) (firstAt m c pt0 hc0 hc1 hc2 da).2.1)) := by
  intro t' ht' _ y hy
  have e : t' = pt0 := Fin.ext (by show t'.val = 0; omega)
  subst e
  rw [first_agg (o := 400 * (pt0 : Fin cfg0.N).val) (ho := by rw [bandRow]; rfl), dif_pos hy]
  rfl

/-- After a later phase-0 point t the bands up to t are filled, given those below t were. -/
theorem aggOK_band (c : Dev nD) (t : Fin cfg0.N) (h1 : t.val < 25) (hc0 : ¬condFirst (grid0.coords t)) (hc1 : condPhase0 (grid0.coords t)) (hc2 : ¬condPhase1 (grid0.coords t))
    (d : Vec F S10000x128 .f32) (hd : AggOK m c t.val d) :
    AggOK m c (t.val + 1) (scAgg.view.read (Elt F) (scAgg.view.writes (Elt F) ((Memref.isWhole_whole cc0_scratch1).unread d) (bandAt m c t hc0 hc1 hc2 (hVal m c) d).1)) := by
  intro t' ht' h25 y hy
  rw [band_agg (o := 400 * t.val) (ho := by rw [bandRow, Nat.mod_eq_of_lt h1])]
  by_cases e : t' = t
  · subst e; rw [dif_pos hy]; rfl
  · have hne : t'.val ≠ t.val := fun h => e (Fin.ext h)
    have hlt : t'.val < t.val := by omega
    rw [dif_neg (by omega)]
    exact hd t' hlt h25 y hy

/-! ## The invariant and the proof data -/

/-- Before point n: at n = 0 each scratch at anything; later the first scratch at h, the second at contents whose
    bands below n are filled; the generator at some state. -/
def PhiS (c : Dev nD) : ℕ → sProp 𝕄
  | 0 => Pipeline.ΦA spec0 c
  | n + 1 => iprop(iprop(owns (c : Thread nD τ) scH fullShare (hVal m c) ∗ (∃ d, owns (c : Thread nD τ) scAgg fullShare d ∗ ⌜AggOK m c (n + 1) d⌝)) ∗ (∃ r, prngReg c r))

theorem PhiS_succ (c : Dev nD) (n : ℕ) :
    PhiS m c (n + 1) = iprop(iprop(owns (c : Thread nD τ) scH fullShare (hVal m c) ∗ (∃ d, owns (c : Thread nD τ) scAgg fullShare d ∗ ⌜AggOK m c (n + 1) d⌝)) ∗ (∃ r, prngReg c r)) := rfl

theorem PhiS_pos (c : Dev nD) (n : ℕ) (hn : n ≠ 0) :
    PhiS m c n = iprop(iprop(owns (c : Thread nD τ) scH fullShare (hVal m c) ∗ (∃ d, owns (c : Thread nD τ) scAgg fullShare d ∗ ⌜AggOK m c n d⌝)) ∗ (∃ r, prngReg c r)) := by
  cases n with
  | zero => exact absurd rfl hn
  | succ n => rfl

/-- The proof data: arrays as the region finds them; each input's buffer at its block; the output's buffer, at a
    phase-1 point, at that point's block; the invariant above; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVal m c t
  Φ t := PhiS m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outVal m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
/-- Through phase 0 the output's buffer is handed back as found. -/
theorem leaves6_idle (c : Dev nD) (t : Fin cfg0.N) (h : t.val < 25) :
    (dats m 0 c).leavesExact 6 t = iprop(∃ d, owns (c : Thread nD τ) (ms6 t) fullShare ((dats m 0 c).before 6 t d)) :=
  (dats m 0 c).leavesExact_idle 6 t ((idle6_iff t).mpr h) (Bool.eq_false_iff.mpr fun hf => by have := (flush6_iff t).mp hf; omega)
/-- At a phase-1 point it holds the point's block. -/
theorem leaves6_live (c : Dev nD) (t : Fin cfg0.N) (h : ¬t.val < 25) :
    (dats m 0 c).leavesExact 6 t = owns (c : Thread nD τ) (ms6 t) fullShare (outVal m c t) := by
  unfold Dat.leavesExact
  rw [Bool.eq_false_iff.mpr fun hi => h ((idle6_iff t).mp hi), after6]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the point's case is decided by its number; the invariant hands the body the scratch buffers
    at what the points before left and takes them back with this point's band added (phase 0) or unchanged (phase 1). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rewrite [show (dats m 0 c).owesAt () t.succ = (dats m 0 c).owesAt () t.castSucc from rfl]
  rewrite [leaves0, leaves1, leaves2, leaves3, leaves4, leaves5]
  rewrite [show (dats m 0 c).Φ t.succ = PhiS m c (t.val + 1) from rfl, PhiS_succ]
  rewrite [show (dats m 0 c).Φ t.castSucc = PhiS m c t.val from by dsimp only [dats]; simp only [Fin.coe_castSucc]]
  have hN : t.val < 50 := lt_of_lt_of_eq t.isLt N50
  by_cases hz : t.val = 0
  · -- the first point
    obtain rfl : t = pt0 := Fin.ext hz
    have hc0 : condFirst (grid0.coords pt0) := (condFirst_iff pt0).mpr rfl
    have hc1 : condPhase0 (grid0.coords pt0) := (condPhase0_iff pt0).mpr (by show (0 : ℕ) < 25; omega)
    have hc2 : ¬condPhase1 (grid0.coords pt0) := fun h => by have := (condPhase1_iff pt0).mp h; revert this; show ¬(25 ≤ (0 : ℕ)); omega
    rewrite [leaves6_idle m c pt0 (by show (0 : ℕ) < 25; omega)]
    rewrite [show PhiS m c (pt0 : Fin cfg0.N).val = Pipeline.ΦA spec0 c from rfl, PhiA_open]
    iintro ⟨⟨⟨⟨%dh, HH⟩, ⟨%da, HA⟩⟩, Hg⟩, Ho, ⟨%d0, H0⟩, ⟨%d1, H1⟩, ⟨%d2, H2⟩, ⟨%d3, H3⟩, ⟨%d4, H4⟩, ⟨%d5, H5⟩, H6⟩
    iapply ((firstAt m c pt0 hc0 hc1 hc2 da).2.2 Set.univ _)
    isplitl [H0]; · iexact H0
    isplitl [H1]; · iexact H1
    isplitl [H2]; · iexact H2
    isplitl [H3]; · iexact H3
    isplitl [H4]; · iexact H4
    isplitl [H5]; · iexact H5
    isplitl [HH]; · iexists _; iexact HH
    isplitl [HA]; · iexact HA
    iintro ⟨H0, H1, H2, H3, H4, H5, ⟨%fh, HH⟩, HA⟩
    isplitl [HH HA Hg]
    · isplitl [HH HA]
      · isplitl [HH]
        · unfold owns; iexists _; isplitr
          swap; · iexact HH
          ipureintro; exact first_h _ _ _ _ _ _ _ _ _ _ _ _ _ _ _ _ _ _ _ _ hc0 hc1 hc2 _ _ _ _ _ _ da fh
        iexists _; isplitl [HA]
        · unfold owns; iexists _; isplitr
          swap; · iexact HA
          ipureintro; rfl
        ipureintro; exact aggOK_first m c hc0 hc1 hc2 da
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rewrite [PhiS_pos m c t.val hz]
    by_cases h1 : t.val < 25
    · -- a later point of phase 0
      have hc0 : ¬condFirst (grid0.coords t) := fun h => hz ((condFirst_iff t).mp h)
      have hc1 : condPhase0 (grid0.coords t) := (condPhase0_iff t).mpr h1
      have hc2 : ¬condPhase1 (grid0.coords t) := fun h => by have := (condPhase1_iff t).mp h; omega
      rewrite [leaves6_idle m c t h1]
      iintro ⟨⟨⟨HH, ⟨%da, HA, %hda⟩⟩, Hg⟩, Ho, ⟨%d0, H0⟩, ⟨%d1, H1⟩, ⟨%d2, H2⟩, ⟨%d3, H3⟩, ⟨%d4, H4⟩, ⟨%d5, H5⟩, H6⟩
      iapply ((bandAt m c t hc0 hc1 hc2 (hVal m c) da).2 Set.univ _)
      isplitl [H0]; · iexact H0
      isplitl [H1]; · iexact H1
      isplitl [H2]; · iexact H2
      isplitl [H3]; · iexact H3
      isplitl [H4]; · iexact H4
      isplitl [H5]; · iexact H5
      isplitl [HH]; · iexact HH
      isplitl [HA]; · iexact HA
      iintro ⟨H0, H1, H2, H3, H4, H5, HH, HA⟩
      isplitl [HH HA Hg]
      · isplitl [HH HA]
        · isplitl [HH]; · iexact HH
          iexists _; isplitl [HA]
          · unfold owns; iexists _; isplitr
            swap; · iexact HA
            ipureintro; rfl
          ipureintro; exact aggOK_band m c t h1 hc0 hc1 hc2 da hda
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a point of phase 1
      have hc0 : ¬condFirst (grid0.coords t) := fun h => hz ((condFirst_iff t).mp h)
      have hc1 : ¬condPhase0 (grid0.coords t) := fun h => h1 ((condPhase0_iff t).mp h)
      have hc2 : condPhase1 (grid0.coords t) := (condPhase1_iff t).mpr (by omega)
      rewrite [leaves6_live m c t h1]
      iintro ⟨⟨⟨HH, ⟨%da, HA, %hda⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl : da = aggFull m c := agg_full_of_ok m c t.val (by omega) da hda
      iapply ((outAt m c t hc0 hc1 hc2 (hVal m c) (aggFull m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HH]; · iexact HH
      isplitl [HA]; · iexact HA
      iintro ⟨H0, H1, H2, H3, H4, H5, ⟨%fo, H6⟩, HH, HA⟩
      isplitl [HH HA Hg]
      · isplitl [HH HA]
        · isplitl [HH]; · iexact HH
          iexists _; isplitl [HA]; · iexact HA
          ipureintro; exact aggOK_past m c t.val _ (by omega) hda
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact out_block _ _ _ _ _ _ _ _ _ _ _ _ _ _ _ _ _ _ _ _ hc0 hc1 hc2 _ _ _ _ _ _ _ _ fo

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is what the region hands over. -/
theorem hin (c : Dev nD) : Pipeline.ΦA spec0 c ⊢ (dats m 0 c).Φ 0 := Idealize.SL.BI.Entails.refl _

/-- After the last point the scratch buffers' named contents are forgotten. -/
theorem hout (c : Dev nD) : (dats m 0 c).Φ (Fin.last cfg0.N) ⊢ Pipeline.ΦA spec0 c := by
  rewrite [show (dats m 0 c).Φ (Fin.last cfg0.N) = PhiS m c cfg0.N from by dsimp only [dats]; simp only [Fin.val_last]]
  rewrite [PhiS_pos m c cfg0.N (by rw [N50]; decide), PhiA_open]
  iintro ⟨⟨HH, ⟨%da, HA, -⟩⟩, Hg⟩
  isplitl [HH HA]
  · isplitl [HH]
    · iexists _; iexact HH
    iexists _; iexact HA
  iexact Hg

/-! ## The run and the frame -/

/-- Every weakly fair execution of @main terminates, each array of the pipeline at what the write-backs leave of the
    proof data (`arrAt`), every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdealConds.lean ====
/-
  The grid is 2 × 25, walked phase-major: point t has phase t / 25 and row-block t % 25.
  The body has three guarded parts. The first (phase 0 and block 0) holds at point 0 only; the second
  (phase 0) at the points below 25; the third (phase 1) from point 25 on. The output window is touched by
  the third part alone, so it is idle through phase 0 and written back at exactly the points of phase 1.
  Also named here: the staging memref each window is on at a point, the two scratch buffers, and the
  region's invariant opened into "each scratch at some contents, the generator at some state".
-/
import proofs.«154731_g28501402976259_cont_9to1_647_16_alg».proof.Proof.Gen.KernelIdeal.Frame
import proofs.«154731_g28501402976259_cont_9to1_647_16_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three guards, as functions of the grid coordinates -/

/-- Phase 0 and row-block 0 together: the guard of the part that fills the first scratch. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 and nowhere else. -/
theorem condFirst_iff : ∀ t : Fin cfg0.N, condFirst (grid0.coords t) ↔ t.val = 0 :=
  (by decide +kernel : ∀ t : Fin grid0.N, condFirst (grid0.coords t) ↔ t.val = 0)

/-- Phase 0: the guard of the part that fills one band of 400 rows of the second scratch. -/
abbrev condPhase0 (i : grid0.Coords) : Prop := k0_cond2 i = 1#1
theorem condPhase0_iff : ∀ t : Fin cfg0.N, condPhase0 (grid0.coords t) ↔ t.val < 25 :=
  (by decide +kernel : ∀ t : Fin grid0.N, condPhase0 (grid0.coords t) ↔ t.val < 25)

/-- Phase 1: the guard of the part that stores the output block. -/
abbrev condPhase1 (i : grid0.Coords) : Prop := k0_cond3 i = 1#1
theorem condPhase1_iff : ∀ t : Fin cfg0.N, condPhase1 (grid0.coords t) ↔ 25 ≤ t.val :=
  (by decide +kernel : ∀ t : Fin grid0.N, condPhase1 (grid0.coords t) ↔ 25 ≤ t.val)

/-- The band of the second scratch that a phase-0 point fills starts at row 400 · (row-block). -/
theorem bandRow : ∀ t : Fin cfg0.N, k0_off1 (grid0.coords t) = ![400 * (t.val % 25), 0] :=
  (by decide +kernel : ∀ t : Fin grid0.N, k0_off1 (grid0.coords t) = ![400 * (t.val % 25), 0])

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly through phase 0. -/
theorem idle6_iff : ∀ t : Fin cfg0.N, cfg0.idle 6 (grid0.coords t) = true ↔ t.val < 25 :=
  (by decide +kernel : ∀ t : Fin grid0.N, cfg0.idle 6 (grid0.coords t) = true ↔ t.val < 25)
/-- The output block is written back exactly at the points of phase 1 (its block index p · i moves at each). -/
theorem flush6_iff : ∀ t : Fin cfg0.N, (cfg0.win 6).flush t = true ↔ 25 ≤ t.val :=
  (by decide +kernel : ∀ t : Fin grid0.N, win0_6.flush t = true ↔ 25 ≤ t.val)
/-- At a phase-1 point the output window is on block (point − 25), rows 400 · (point − 25) onward. -/
theorem outIndex : ∀ t : Fin cfg0.N, 25 ≤ t.val → (cfg0.win 6).index t (0 : Fin 2) = t.val - 25 ∧ (cfg0.win 6).index t (1 : Fin 2) = 0 :=
  (by decide +kernel : ∀ t : Fin grid0.N, 25 ≤ t.val → win0_6.index t (0 : Fin 2) = t.val - 25 ∧ win0_6.index t (1 : Fin 2) = 0)

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
/-- The two scratch buffers: the first holds x·W1 + b1, the second is filled band by band through phase 0. -/
abbrev scH : Memref sig .tc .vmem S10000x128 .f32 := Memref.whole cc0_scratch0
abbrev scAgg : Memref sig .tc .vmem S10000x128 .f32 := Memref.whole cc0_scratch1

/-- What the region hands the body before its first point: each scratch at some contents, the generator at some state. -/
theorem PhiA_open (c : Dev nD) :
    (Pipeline.ΦA spec0 c : sProp 𝕄)
      = iprop(iprop((∃ d, owns (c : Thread nD τ) scH fullShare d) ∗ (∃ d, owns (c : Thread nD τ) scAgg fullShare d)) ∗ (∃ r, prngReg c r)) := by
  unfold Pipeline.ΦA; rw [scopedRest0_eq]; simp only [scH, scAgg, owns_whole]; try rfl

end Cert.KernelIdeal.Body

end
-- ==== Proof.KernelIdealRunFirst.lean ====
/-
  The body at the grid's first point (phase 0, row-block 0). It stores x·W1 + b1 over the whole first scratch,
  reads it back, and stores rows 0 … 399 of relu(Adj·h)·W2 + b2 into the second scratch, whose other rows
  keep what they held (`xa`). The output's buffer is not touched. The pieces each scratch ends with are found
  by running the body.
-/
import proofs.«154731_g28501402976259_cont_9to1_647_16_alg».proof.Proof.KernelIdealConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the first scratch ends with its pieces `LH` written over anything, the second with its
    pieces `LA` written over the contents `xa` it was handed; the inputs unchanged. -/
noncomputable def runFirst (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : condFirst i) (hc1 : condPhase0 i) (hc2 : ¬condPhase1 i)
    (x0 : Vec F S10000x128 .f32) (x1 : Vec F S128x128 .f32) (x2 : Vec F S1x128 .f32) (x3 : Vec F S128x128 .f32) (x4 : Vec F S1x128 .f32) (x5 : Vec F S400x10000 .f32) (xa : Vec F S10000x128 .f32) :
    Σ' (LH : List (View.Piece (Elt F) S10000x128 .f32)), { LA : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ owns (c : Thread nD τ) arg10 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f LH) ∗ (arg10.view.loc (c : Thread nD τ) ↦[arg10.view.set]{fullShare} arg10.view.writes (Elt F) (harg10.unread xa) LA)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dh, %fh, -, HH⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfa
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HH]; · iexists _; iexact HH
    iexact HA

end Cert.KernelIdeal.Body

end
-- ==== Proof.KernelIdealRunBand.lean ====
/-
  The body at a later point of phase 0 (row-block i, 0 < i < 25). The first scratch holds `xh` and is only read;
  rows 400·i … 400·i + 399 of the second scratch are stored, its other rows keep what they held (`xa`).
  The output's buffer is not touched.
-/
import proofs.«154731_g28501402976259_cont_9to1_647_16_alg».proof.Proof.KernelIdealRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later phase-0 point: the second scratch ends with its pieces `LA` written over the contents `xa` it was handed;
    the inputs and the first scratch unchanged. -/
noncomputable def runBand (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬condFirst i) (hc1 : condPhase0 i) (hc2 : ¬condPhase1 i)
    (x0 : Vec F S10000x128 .f32) (x1 : Vec F S128x128 .f32) (x2 : Vec F S1x128 .f32) (x3 : Vec F S128x128 .f32) (x4 : Vec F S1x128 .f32) (x5 : Vec F S400x10000 .f32) (xh xa : Vec F S10000x128 .f32) :
    { LA : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xh ∗ owns (c : Thread nD τ) arg10 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xh ∗ (arg10.view.loc (c : Thread nD τ) ↦[arg10.view.set]{fullShare} arg10.view.writes (Elt F) (harg10.unread xa) LA)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fh, %hfh, HH⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfh; obtain rfl := harg10.eq_unread hfa
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HH]
    · iexists _; isplitr; · ipureintro; exact harg9.read_unread _
      iexact HH
    iexact HA

end Cert.KernelIdeal.Body

end
-- ==== Proof.KernelIdealRunOut.lean ====
/-
  The body at a point of phase 1 (row-block i). Both scratch buffers are only read (`xh`, `xa`); the whole
  output block is stored: rows 400·i … 400·i + 399 of Adj times the second scratch.
-/
import proofs.«154731_g28501402976259_cont_9to1_647_16_alg».proof.Proof.KernelIdealRunBand

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A phase-1 point: the output's staging buffer ends with its pieces `LO` written over anything; the inputs and both
    scratch buffers unchanged. -/
noncomputable def runOut (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬condFirst i) (hc1 : ¬condPhase0 i) (hc2 : condPhase1 i)
    (x0 : Vec F S10000x128 .f32) (x1 : Vec F S128x128 .f32) (x2 : Vec F S1x128 .f32) (x3 : Vec F S128x128 .f32) (x4 : Vec F S1x128 .f32) (x5 : Vec F S400x10000 .f32) (xh xa : Vec F S10000x128 .f32) :
    { LO : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xh ∗ owns (c : Thread nD τ) arg10 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ owns (c : Thread nD τ) arg9 fullShare xh ∗ owns (c : Thread nD τ) arg10 fullShare xa) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fh, %hfh, HH⟩, ⟨%fa, %hfa, HA⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfh; obtain rfl := harg10.eq_unread hfa
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HH]
    · iexists _; isplitr; · ipureintro; exact harg9.read_unread _
      iexact HH
    iexists _; isplitr; · ipureintro; exact harg10.read_unread _
    iexact HA

end Cert.KernelIdeal.Body

end
-- ==== Proof.KernelIdealPieces.lean ====
/-
  What the found pieces are, as values of the blocks the body loaded.
  A store through the whole rectangle leaves its payload, whatever the buffer held. A store of one band of 400 rows
  leaves the payload on that band and the earlier contents on every other row. Every load is through the whole
  rectangle of a buffer held whole, so it reads the buffer's contents; the first point's read-back of the first
  scratch reads what was just stored there.
-/
import proofs.«154731_g28501402976259_cont_9to1_647_16_alg».proof.Proof.KernelIdealRunOut
import Idealize.ShloMosaic.Lib.Pipeline.Value
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOff : (![0, 0] : Fin 2 → Nat) = fun _ => 0 := funext fun a => by fin_cases a <;> rfl

/-- The first point leaves x·W1 + b1 in the first scratch: one store through the whole rectangle. -/
theorem first_h (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : condFirst i) (hc1 : condPhase0 i) (hc2 : ¬condPhase1 i)
    (x0 : Vec F S10000x128 .f32) (x1 : Vec F S128x128 .f32) (x2 : Vec F S1x128 .f32) (x3 : Vec F S128x128 .f32) (x4 : Vec F S1x128 .f32) (x5 : Vec F S400x10000 .f32) (xa : Vec F S10000x128 .f32) (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 arg10 harg10 hc0 hc1 hc2 x0 x1 x2 x3 x4 x5 xa).1) = k0_pay1 x0 x1 x2 := by
  rw [View.read_writes_eq_canon _ _ _ (View.cover_of_tiledL _ S10000x128.size (by sl_kernel_rfl))]
  unfold runFirst
  dsimp only
  sl_unfold_words
  rw [View.canon_unit_zero zeroOff]
  simp only [View.readAt_eq_ld, harg2.read_unread, harg3.read_unread, harg4.read_unread,
    View.ld_unit_zero (S := S10000x128) zeroOff, View.ld_unit_zero (S := S128x128) zeroOff, View.ld_unit_zero (S := S1x128) zeroOff]

/-- A phase-1 point leaves Adj-block · (second scratch) in the output's buffer: one store through the whole rectangle. -/
theorem out_block (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬condFirst i) (hc1 : ¬condPhase0 i) (hc2 : condPhase1 i)
    (x0 : Vec F S10000x128 .f32) (x1 : Vec F S128x128 .f32) (x2 : Vec F S1x128 .f32) (x3 : Vec F S128x128 .f32) (x4 : Vec F S1x128 .f32) (x5 : Vec F S400x10000 .f32) (xh xa : Vec F S10000x128 .f32) (f : arg8.view.ty.Contents (Elt F)) :
    arg8.view.read (Elt F) (arg8.view.writes (Elt F) f (runOut c i arg2 harg2 arg3 harg3 arg4 harg4 arg5 harg5 arg6 harg6 arg7 harg7 arg8 harg8 arg9 harg9 arg10 harg10 hc0 hc1 hc2 x0 x1 x2 x3 x4 x5 xh xa).1) = k0_pay3 x5 xa := by
  rw [View.read_writes_eq_canon _ _ _ (View.cover_of_tiledL _ S400x128.size (by sl_kernel_rfl))]
  unfold runOut
  dsimp only
  rw [View.canon_unit_zero zeroOff]
  simp only [View.readAt_eq_ld, harg7.read_unread, harg10.read_unread,
    View.ld_unit_zero (S := S400x10000) zeroOff, View.ld_unit_zero (S := S10000x128) zeroOff]

/-- A later phase-0 point leaves, in the second scratch, its band's payload on rows o … o + 399 (o = 400 · row-block)
    and the handed contents `xa` on every other row. -/
theorem band_agg (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬condFirst i) (hc1 : condPhase0 i) (hc2 : ¬condPhase1 i)
    (x0 : Vec F S10000x128 .f32) (x1 : Vec F S128x128 .f32) (x2 : Vec F S1x128 .f32) (x3 : Vec F S128x128 .f32) (x4 : Vec F S1x128 .f32) (x5 : Vec F S400x10000 .f32) (xh xa : Vec F S10000x128 .f32) (o : ℕ) (ho : k0_off1 i = ![o, 0]) (y : S10000x128.Idx) :
    arg10.view.read (Elt F) (arg10.view.writes (Elt F) (harg10.unread xa) (runBand c i arg2 harg2 arg3 harg3 arg4 harg4 arg5 harg5 arg6 harg6 arg7 harg7 arg8 harg8 arg9 harg9 arg10 harg10 hc0 hc1 hc2 x0 x1 x2 x3 x4 x5 xh xa).1) y
      = if h : o ≤ (y (0 : Fin 2)).val ∧ (y (0 : Fin 2)).val < o + 400 then
          k0_pay2 x5 xh x3 x4 (Rect.unitLocal (s := S10000x128) (off := ![o, 0]) (size := S400x128.size) y (Rect.unit_rows_mem y rfl rfl h))
        else xa y := by
  unfold runBand
  dsimp only
  rw [View.read_writes_cons_rows (v := arg10.view) (f := harg10.unread xa) (W := 400) _ _ [] y ho (show S400x128.size (0 : Fin 2) = 400 from rfl) rfl]
  simp only [View.readAt_eq_ld, harg5.read_unread, harg6.read_unread, harg7.read_unread, harg9.read_unread,
    View.ld_unit_zero (S := S400x10000) zeroOff, View.ld_unit_zero (S := S10000x128) zeroOff,
    View.ld_unit_zero (S := S128x128) zeroOff, View.ld_unit_zero (S := S1x128) zeroOff,
    View.writes_nil, harg10.read_unread]

/-- The first point leaves, in the second scratch, its band's payload — computed from the x·W1 + b1 it has just
    stored and read back — on rows o … o + 399 and the handed contents `xa` on every other row. -/
theorem first_agg (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x10000 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : condFirst i) (hc1 : condPhase0 i) (hc2 : ¬condPhase1 i)
    (x0 : Vec F S10000x128 .f32) (x1 : Vec F S128x128 .f32) (x2 : Vec F S1x128 .f32) (x3 : Vec F S128x128 .f32) (x4 : Vec F S1x128 .f32) (x5 : Vec F S400x10000 .f32) (xa : Vec F S10000x128 .f32) (o : ℕ) (ho : k0_off1 i = ![o, 0]) (y : S10000x128.Idx) :
    arg10.view.read (Elt F) (arg10.view.writes (Elt F) (harg10.unread xa) (runFirst c i arg2 harg2 arg3 harg3 arg4 harg4 arg5 harg5 arg6 harg6 arg7 harg7 arg8 harg8 arg9 harg9 arg10 harg10 hc0 hc1 hc2 x0 x1 x2 x3 x4 x5 xa).2.1) y
      = if h : o ≤ (y (0 : Fin 2)).val ∧ (y (0 : Fin 2)).val < o + 400 then
          k0_pay2 x5 (k0_pay1 x0 x1 x2) x3 x4 (Rect.unitLocal (s := S10000x128) (off := ![o, 0]) (size := S400x128.size) y (Rect.unit_rows_mem y rfl rfl h))
        else xa y := by
  unfold runFirst
  dsimp only
  rw [View.read_writes_cons_rows (v := arg10.view) (f := harg10.unread xa) (W := 400) _ _ [] y ho (show S400x128.size (0 : Fin 2) = 400 from rfl) rfl]
  sl_unfold_words
  simp only [View.readCov_unit_zero (S := S10000x128) _ zeroOff,
    View.readAt_eq_ld, harg2.read_unread, harg3.read_unread, harg4.read_unread, harg5.read_unread, harg6.read_unread, harg7.read_unread,
    View.ld_unit_zero (S := S400x10000) zeroOff, View.ld_unit_zero (S := S10000x128) zeroOff,
    View.ld_unit_zero (S := S128x128) zeroOff, View.ld_unit_zero (S := S1x128) zeroOff,
    View.writes_nil, harg10.read_unread]

end Cert.KernelIdeal.Body

end
-- ==== Proof.KernelIdealBody.lean ====
/-
  The run of the whole grid, with what the kernel carries between points named.
  After point 0 the first scratch holds h = x·W1 + b1 and never changes. Through phase 0 the second scratch is filled
  one band of 400 rows per point: before point n every band below min(n, 25) holds relu(Adj-band · h)·W2 + b2, the
  other rows whatever they held. From point 25 on all 25 bands are filled, so its contents are one function of the
  arguments, and the point's output block is Adj-band · (that function). The output window is idle through phase 0 and
  written back at each point of phase 1.
-/
import proofs.«154731_g28501402976259_cont_9to1_647_16_alg».proof.Proof.KernelIdealPieces
import Idealize.ShloMosaic.Lib.Pipeline.Value
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- The grid's first point. -/
def pt0 : Fin cfg0.N := ⟨0, by rw [N50]; decide⟩

/-! ## What the scratch buffers and the output block hold -/

/-- h = x·W1 + b1, from the blocks the first point loads. -/
def hVal (c : Dev nD) : Vec F S10000x128 .f32 := k0_pay1 (iblk m c 0 pt0) (iblk m c 1 pt0) (iblk m c 2 pt0)

/-- Band t of the second scratch: relu(Adj-band t · h)·W2 + b2, 400 rows. -/
def bandVal (c : Dev nD) (t : Fin cfg0.N) : Vec F S400x128 .f32 := k0_pay2 (iblk m c 5 t) (hVal m c) (iblk m c 3 t) (iblk m c 4 t)

/-- The bands below k (and below 25) of `d` hold their values. -/
def AggOK (c : Dev nD) (k : ℕ) (d : Vec F S10000x128 .f32) : Prop :=
  ∀ (t : Fin cfg0.N), t.val < k → t.val < 25 → ∀ (y : S10000x128.Idx) (h : 400 * t.val ≤ (y (0 : Fin 2)).val ∧ (y (0 : Fin 2)).val < 400 * t.val + 400),
    d y = bandVal m c t (Rect.unitLocal (s := S10000x128) (off := ![400 * t.val, 0]) (size := S400x128.size) y (Rect.unit_rows_mem y rfl rfl h))

/-- The band a row lies in. -/
def bandOf (y : S10000x128.Idx) : Fin cfg0.N := ⟨(y (0 : Fin 2)).val / 400, by
  have : (y (0 : Fin 2)).val < 10000 := (y (0 : Fin 2)).isLt
  rw [N50]; omega⟩

theorem bandOf_lt (y : S10000x128.Idx) : (bandOf y).val < 25 := by
  have : (y (0 : Fin 2)).val < 10000 := (y (0 : Fin 2)).isLt
  show (y (0 : Fin 2)).val / 400 < 25; omega

theorem bandOf_mem (y : S10000x128.Idx) : 400 * (bandOf y).val ≤ (y (0 : Fin 2)).val ∧ (y (0 : Fin 2)).val < 400 * (bandOf y).val + 400 := by
  show 400 * ((y (0 : Fin 2)).val / 400) ≤ (y (0 : Fin 2)).val ∧ (y (0 : Fin 2)).val < 400 * ((y (0 : Fin 2)).val / 400) + 400
  omega

/-- The second scratch once every band is filled: row r holds band r / 400 at row r % 400. -/
def aggFull (c : Dev nD) : Vec F S10000x128 .f32 := fun y =>
  bandVal m c (bandOf y) (Rect.unitLocal (s := S10000x128) (off := ![400 * (bandOf y).val, 0]) (size := S400x128.size) y (Rect.unit_rows_mem y rfl rfl (bandOf_mem y)))

/-- Contents whose 25 bands all hold their values are that function. -/
theorem agg_full_of_ok (c : Dev nD) (k : ℕ) (hk : 25 ≤ k) (d : Vec F S10000x128 .f32) (h : AggOK m c k d) : d = aggFull m c :=
  funext fun y => h (bandOf y) (lt_of_lt_of_le (bandOf_lt y) hk) (bandOf_lt y) y (bandOf_mem y)

/-- Past phase 0 no band is added. -/
theorem aggOK_past (c : Dev nD) (k : ℕ) (d : Vec F S10000x128 .f32) (hk : 25 ≤ k) (h : AggOK m c k d) : AggOK m c (k + 1) d :=
  fun t _ h25 y hy => h t (lt_of_lt_of_le h25 hk) h25 y hy

/-- A phase-1 point's output block: Adj-band · (the filled second scratch). -/
def outVal (c : Dev nD) (t : Fin cfg0.N) : Vec F S400x128 .f32 := k0_pay3 (iblk m c 5 t) (aggFull m c)

/-! ## The body's runs at a point -/

abbrev firstAt (c : Dev nD) (t : Fin cfg0.N) (hc0 : condFirst (grid0.coords t)) (hc1 : condPhase0 (grid0.coords t)) (hc2 : ¬condPhase1 (grid0.coords t)) (da : Vec F S10000x128 .f32) :=
  runFirst c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scAgg (Memref.isWhole_whole _) hc0 hc1 hc2 (iblk m c 0 t) (iblk m c 1 t) (iblk m c 2 t) (iblk m c 3 t) (iblk m c 4 t) (iblk m c 5 t) da
abbrev bandAt (c : Dev nD) (t : Fin cfg0.N) (hc0 : ¬condFirst (grid0.coords t)) (hc1 : condPhase0 (grid0.coords t)) (hc2 : ¬condPhase1 (grid0.coords t)) (dh da : Vec F S10000x128 .f32) :=
  runBand c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scAgg (Memref.isWhole_whole _) hc0 hc1 hc2 (iblk m c 0 t) (iblk m c 1 t) (iblk m c 2 t) (iblk m c 3 t) (iblk m c 4 t) (iblk m c 5 t) dh da
abbrev outAt (c : Dev nD) (t : Fin cfg0.N) (hc0 : ¬condFirst (grid0.coords t)) (hc1 : ¬condPhase0 (grid0.coords t)) (hc2 : condPhase1 (grid0.coords t)) (dh da : Vec F S10000x128 .f32) :=
  runOut c (grid0.coords t) (ms0 t) (hs0 t) (ms1 t) (hs1 t) (ms2 t) (hs2 t) (ms3 t) (hs3 t) (ms4 t) (hs4 t) (ms5 t) (hs5 t) (ms6 t) (hs6 t) scH (Memref.isWhole_whole _) scAgg (Memref.isWhole_whole _) hc0 hc1 hc2 (iblk m c 0 t) (iblk m c 1 t) (iblk m c 2 t) (iblk m c 3 t) (iblk m c 4 t) (iblk m c 5 t) dh da

/-- After the first point band 0 is filled. -/
theorem aggOK_first (c : Dev nD) (hc0 : condFirst (grid0.coords pt0)) (hc1 : condPhase0 (grid0.coords pt0)) (hc2 : ¬condPhase1 (grid0.coords pt0)) (da : Vec F S10000x128 .f32) :
    AggOK m c 1 (scAgg.view.read (Elt F) (scAgg.view.writes (Elt F) ((Memref.isWhole_whole cc0_scratch1).unread da) (firstAt m c pt0 hc0 hc1 hc2 da).2.1)) := by
  intro t' ht' _ y hy
  have e : t' = pt0 := Fin.ext (by show t'.val = 0; omega)
  subst e
  rw [first_agg (o := 400 * (pt0 : Fin cfg0.N).val) (ho := by rw [bandRow]; rfl), dif_pos hy]
  rfl

/-- After a later phase-0 point t the bands up to t are filled, given those below t were. -/
theorem aggOK_band (c : Dev nD) (t : Fin cfg0.N) (h1 : t.val < 25) (hc0 : ¬condFirst (grid0.coords t)) (hc1 : condPhase0 (grid0.coords t)) (hc2 : ¬condPhase1 (grid0.coords t))
    (d : Vec F S10000x128 .f32) (hd : AggOK m c t.val d) :
    AggOK m c (t.val + 1) (scAgg.view.read (Elt F) (scAgg.view.writes (Elt F) ((Memref.isWhole_whole cc0_scratch1).unread d) (bandAt m c t hc0 hc1 hc2 (hVal m c) d).1)) := by
  intro t' ht' h25 y hy
  rw [band_agg (o := 400 * t.val) (ho := by rw [bandRow, Nat.mod_eq_of_lt h1])]
  by_cases e : t' = t
  · subst e; rw [dif_pos hy]; rfl
  · have hne : t'.val ≠ t.val := fun h => e (Fin.ext h)
    have hlt : t'.val < t.val := by omega
    rw [dif_neg (by omega)]
    exact hd t' hlt h25 y hy

/-! ## The invariant and the proof data -/

/-- Before point n: at n = 0 each scratch at anything; later the first scratch at h, the second at contents whose
    bands below n are filled; the generator at some state. -/
def PhiS (c : Dev nD) : ℕ → sProp 𝕄
  | 0 => Pipeline.ΦA spec0 c
  | n + 1 => iprop(iprop(owns (c : Thread nD τ) scH fullShare (hVal m c) ∗ (∃ d, owns (c : Thread nD τ) scAgg fullShare d ∗ ⌜AggOK m c (n + 1) d⌝)) ∗ (∃ r, prngReg c r))

theorem PhiS_succ (c : Dev nD) (n : ℕ) :
    PhiS m c (n + 1) = iprop(iprop(owns (c : Thread nD τ) scH fullShare (hVal m c) ∗ (∃ d, owns (c : Thread nD τ) scAgg fullShare d ∗ ⌜AggOK m c (n + 1) d⌝)) ∗ (∃ r, prngReg c r)) := rfl

theorem PhiS_pos (c : Dev nD) (n : ℕ) (hn : n ≠ 0) :
    PhiS m c n = iprop(iprop(owns (c : Thread nD τ) scH fullShare (hVal m c) ∗ (∃ d, owns (c : Thread nD τ) scAgg fullShare d ∗ ⌜AggOK m c n d⌝)) ∗ (∃ r, prngReg c r)) := by
  cases n with
  | zero => exact absurd rfl hn
  | succ n => rfl

/-- The proof data: arrays as the region finds them; each input's buffer at its block; the output's buffer, at a
    phase-1 point, at that point's block; the invariant above; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVal m c t
  Φ t := PhiS m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outVal m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
/-- Through phase 0 the output's buffer is handed back as found. -/
theorem leaves6_idle (c : Dev nD) (t : Fin cfg0.N) (h : t.val < 25) :
    (dats m 0 c).leavesExact 6 t = iprop(∃ d, owns (c : Thread nD τ) (ms6 t) fullShare ((dats m 0 c).before 6 t d)) :=
  (dats m 0 c).leavesExact_idle 6 t ((idle6_iff t).mpr h) (Bool.eq_false_iff.mpr fun hf => by have := (flush6_iff t).mp hf; omega)
/-- At a phase-1 point it holds the point's block. -/
theorem leaves6_live (c : Dev nD) (t : Fin cfg0.N) (h : ¬t.val < 25) :
    (dats m 0 c).leavesExact 6 t = owns (c : Thread nD τ) (ms6 t) fullShare (outVal m c t) := by
  unfold Dat.leavesExact
  rw [Bool.eq_false_iff.mpr fun hi => h ((idle6_iff t).mp hi), after6]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the point's case is decided by its number; the invariant hands the body the scratch buffers
    at what the points before left and takes them back with this point's band added (phase 0) or unchanged (phase 1). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rewrite [show (dats m 0 c).owesAt () t.succ = (dats m 0 c).owesAt () t.castSucc from rfl]
  rewrite [leaves0, leaves1, leaves2, leaves3, leaves4, leaves5]
  rewrite [show (dats m 0 c).Φ t.succ = PhiS m c (t.val + 1) from rfl, PhiS_succ]
  rewrite [show (dats m 0 c).Φ t.castSucc = PhiS m c t.val from by dsimp only [dats]; simp only [Fin.coe_castSucc]]
  have hN : t.val < 50 := lt_of_lt_of_eq t.isLt N50
  by_cases hz : t.val = 0
  · -- the first point
    obtain rfl : t = pt0 := Fin.ext hz
    have hc0 : condFirst (grid0.coords pt0) := (condFirst_iff pt0).mpr rfl
    have hc1 : condPhase0 (grid0.coords pt0) := (condPhase0_iff pt0).mpr (by show (0 : ℕ) < 25; omega)
    have hc2 : ¬condPhase1 (grid0.coords pt0) := fun h => by have := (condPhase1_iff pt0).mp h; revert this; show ¬(25 ≤ (0 : ℕ)); omega
    rewrite [leaves6_idle m c pt0 (by show (0 : ℕ) < 25; omega)]
    rewrite [show PhiS m c (pt0 : Fin cfg0.N).val = Pipeline.ΦA spec0 c from rfl, PhiA_open]
    iintro ⟨⟨⟨⟨%dh, HH⟩, ⟨%da, HA⟩⟩, Hg⟩, Ho, ⟨%d0, H0⟩, ⟨%d1, H1⟩, ⟨%d2, H2⟩, ⟨%d3, H3⟩, ⟨%d4, H4⟩, ⟨%d5, H5⟩, H6⟩
    iapply ((firstAt m c pt0 hc0 hc1 hc2 da).2.2 Set.univ _)
    isplitl [H0]; · iexact H0
    isplitl [H1]; · iexact H1
    isplitl [H2]; · iexact H2
    isplitl [H3]; · iexact H3
    isplitl [H4]; · iexact H4
    isplitl [H5]; · iexact H5
    isplitl [HH]; · iexists _; iexact HH
    isplitl [HA]; · iexact HA
    iintro ⟨H0, H1, H2, H3, H4, H5, ⟨%fh, HH⟩, HA⟩
    isplitl [HH HA Hg]
    · isplitl [HH HA]
      · isplitl [HH]
        · unfold owns; iexists _; isplitr
          swap; · iexact HH
          ipureintro; exact first_h _ _ _ _ _ _ _ _ _ _ _ _ _ _ _ _ _ _ _ _ hc0 hc1 hc2 _ _ _ _ _ _ da fh
        iexists _; isplitl [HA]
        · unfold owns; iexists _; isplitr
          swap; · iexact HA
          ipureintro; rfl
        ipureintro; exact aggOK_first m c hc0 hc1 hc2 da
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rewrite [PhiS_pos m c t.val hz]
    by_cases h1 : t.val < 25
    · -- a later point of phase 0
      have hc0 : ¬condFirst (grid0.coords t) := fun h => hz ((condFirst_iff t).mp h)
      have hc1 : condPhase0 (grid0.coords t) := (condPhase0_iff t).mpr h1
      have hc2 : ¬condPhase1 (grid0.coords t) := fun h => by have := (condPhase1_iff t).mp h; omega
      rewrite [leaves6_idle m c t h1]
      iintro ⟨⟨⟨HH, ⟨%da, HA, %hda⟩⟩, Hg⟩, Ho, ⟨%d0, H0⟩, ⟨%d1, H1⟩, ⟨%d2, H2⟩, ⟨%d3, H3⟩, ⟨%d4, H4⟩, ⟨%d5, H5⟩, H6⟩
      iapply ((bandAt m c t hc0 hc1 hc2 (hVal m c) da).2 Set.univ _)
      isplitl [H0]; · iexact H0
      isplitl [H1]; · iexact H1
      isplitl [H2]; · iexact H2
      isplitl [H3]; · iexact H3
      isplitl [H4]; · iexact H4
      isplitl [H5]; · iexact H5
      isplitl [HH]; · iexact HH
      isplitl [HA]; · iexact HA
      iintro ⟨H0, H1, H2, H3, H4, H5, HH, HA⟩
      isplitl [HH HA Hg]
      · isplitl [HH HA]
        · isplitl [HH]; · iexact HH
          iexists _; isplitl [HA]
          · unfold owns; iexists _; isplitr
            swap; · iexact HA
            ipureintro; rfl
          ipureintro; exact aggOK_band m c t h1 hc0 hc1 hc2 da hda
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a point of phase 1
      have hc0 : ¬condFirst (grid0.coords t) := fun h => hz ((condFirst_iff t).mp h)
      have hc1 : ¬condPhase0 (grid0.coords t) := fun h => h1 ((condPhase0_iff t).mp h)
      have hc2 : condPhase1 (grid0.coords t) := (condPhase1_iff t).mpr (by omega)
      rewrite [leaves6_live m c t h1]
      iintro ⟨⟨⟨HH, ⟨%da, HA, %hda⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl : da = aggFull m c := agg_full_of_ok m c t.val (by omega) da hda
      iapply ((outAt m c t hc0 hc1 hc2 (hVal m c) (aggFull m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HH]; · iexact HH
      isplitl [HA]; · iexact HA
      iintro ⟨H0, H1, H2, H3, H4, H5, ⟨%fo, H6⟩, HH, HA⟩
      isplitl [HH HA Hg]
      · isplitl [HH HA]
        · isplitl [HH]; · iexact HH
          iexists _; isplitl [HA]; · iexact HA
          ipureintro; exact aggOK_past m c t.val _ (by omega) hda
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact out_block _ _ _ _ _ _ _ _ _ _ _ _ _ _ _ _ _ _ _ _ hc0 hc1 hc2 _ _ _ _ _ _ _ _ fo

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is what the region hands over. -/
theorem hin (c : Dev nD) : Pipeline.ΦA spec0 c ⊢ (dats m 0 c).Φ 0 := Idealize.SL.BI.Entails.refl _

/-- After the last point the scratch buffers' named contents are forgotten. -/
theorem hout (c : Dev nD) : (dats m 0 c).Φ (Fin.last cfg0.N) ⊢ Pipeline.ΦA spec0 c := by
  rewrite [show (dats m 0 c).Φ (Fin.last cfg0.N) = PhiS m c cfg0.N from by dsimp only [dats]; simp only [Fin.val_last]]
  rewrite [PhiS_pos m c cfg0.N (by rw [N50]; decide), PhiA_open]
  iintro ⟨⟨HH, ⟨%da, HA, -⟩⟩, Hg⟩
  isplitl [HH HA]
  · isplitl [HH]
    · iexists _; iexact HH
    iexists _; iexact HA
  iexact Hg

/-! ## The run and the frame -/

/-- Every weakly fair execution of @main terminates, each array of the pipeline at what the write-backs leave of the
    proof data (`arrAt`), every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KernelIdealMath.lean ====
/-
  The body's three payloads read at an entry, over the extended reals.
  Each matrix product into a zero accumulator is the plain sum over the contracted axis; a [1,128] row broadcast
  down the rows reads its column's entry; adding and taking the maximum act entry by entry; a change of shape onto
  the same shape is the identity. So
    first payload  (p, l) = ∑_q x(p,q)·W1(q,l) + b1(0,l),
    band payload   (r, j) = ∑_l max(∑_p A(r,p)·h(p,l), 0)·W2(l,j) + b2(0,j),
    output payload (r, j) = ∑_k A(r,k)·g(k,j).
-/
import proofs.«154731_g28501402976259_cont_9to1_647_16_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Math

open Cert.KernelIdeal Cert.KernelIdeal.Gen
open Idealize.ShloMosaic Idealize.ShloMosaic.ValueIdx

theorem mm_xw_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mm_xw_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- x·W1 at (p, l): the sum over the 128 features. -/
theorem mm_xw (l : FVec Ideal S10000x128 .f32) (r : FVec Ideal S128x128 .f32) (a : Fin 10000) (b : Fin 128) :
    matmul dot_S10000x128_S128x128_S10000x128_1_0_0_1_n_n none l r (constant S10000x128 .f32 0x00000000#32) (ix2 a b) = ∑ k : Fin 128, l (ix2 a k) * r (ix2 k b) := by
  show FloatOps.matmul dot_S10000x128_S128x128_S10000x128_1_0_0_1_n_n none l r (constant S10000x128 .f32 0x00000000#32) (ix2 a b) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 a b) ((ValueIdx.contrEquiv1 dot_S10000x128_S128x128_S10000x128_1_0_0_1_n_n 128 rfl rfl).symm k) = ix2 a k := funext fun d => Fin.ext (by
    match d with
    | ⟨0, _⟩ => exact mm_xw_l0 _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 a b) ((ValueIdx.contrEquiv1 dot_S10000x128_S128x128_S10000x128_1_0_0_1_n_n 128 rfl rfl).symm k) = ix2 k b := funext fun d => Fin.ext (by
    match d with
    | ⟨0, _⟩ => exact (dot_S10000x128_S128x128_S10000x128_1_0_0_1_n_n.rhsIdx_val_of_single rfl _ _).trans hk
    | ⟨1, _⟩ => exact mm_xw_r1 _ _)
  rw [el, er]

theorem mm_adj_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem mm_adj_r1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- An Adj row-block times a [10000,128] matrix at (r, j): the sum over the 10000 nodes. -/
theorem mm_adj (l : FVec Ideal S400x10000 .f32) (r : FVec Ideal S10000x128 .f32) (a : Fin 400) (b : Fin 128) :
    matmul dot_S400x10000_S10000x128_S400x128_1_0_0_1_n_n none l r (constant S400x128 .f32 0x00000000#32) (ix2 a b) = ∑ k : Fin 10000, l (ix2 a k) * r (ix2 k b) := by
  show FloatOps.matmul dot_S400x10000_S10000x128_S400x128_1_0_0_1_n_n none l r (constant S400x128 .f32 0x00000000#32) (ix2 a b) = _
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 a b) ((ValueIdx.contrEquiv1 dot_S400x10000_S10000x128_S400x128_1_0_0_1_n_n 10000 rfl rfl).symm k) = ix2 a k := funext fun d => Fin.ext (by
    match d with
    | ⟨0, _⟩ => exact mm_adj_l0 _ _
    | ⟨1, _⟩ => exact (dot_S400x10000_S10000x128_S400x128_1_0_0_1_n_n.lhsIdx_val_of_single rfl _ _).trans hk)
  have er : dot_S400x10000_S10000x128_S400x128_1_0_0_1_n_n.rhsIdx (ix2 a b) ((ValueIdx.contrEquiv1 dot_S400x10000_S10000x128_S400x128_1_0_0_1_n_n 10000 rfl rfl).symm k) = ix2 k b := funext fun d => Fin.ext (by
    match d with
    | ⟨0, _⟩ => exact (dot_S400x10000_S10000x128_S400x128_1_0_0_1_n_n.rhsIdx_val_of_single rfl _ _).trans hk
    | ⟨1, _⟩ => exact mm_adj_r1 _ _)
  rw [el, er]

theorem mm_hw_l0 (i : S400x128.Idx) (q : dot_S400x128_S128x128_S400x128_1_0_0_1_n_n.contr.Idx) : (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem mm_hw_r1 (i : S400x128.Idx) (q : dot_S400x128_S128x128_S400x128_1_0_0_1_n_n.contr.Idx) : (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl
/-- A [400,128] block times W2 at (r, j): the sum over the 128 hidden features. -/
theorem mm_hw (l : FVec Ideal S400x128 .f32) (r : FVec Ideal S128x128 .f32) (a : Fin 400) (b : Fin 128) :
    matmul dot_S400x128_S128x128_S400x128_1_0_0_1_n_n none l r (constant S400x128 .f32 0x00000000#32) (ix2 a b) = ∑ k : Fin 128, l (ix2 a k) * r (ix2 k b) := by
  show FloatOps.matmul dot_S400x128_S128x128_S400x128_1_0_0_1_n_n none l r (constant S400x128 .f32 0x00000000#32) (ix2 a b) = _
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 a b) ((ValueIdx.contrEquiv1 dot_S400x128_S128x128_S400x128_1_0_0_1_n_n 128 rfl rfl).symm k) = ix2 a k := funext fun d => Fin.ext (by
    match d with
    | ⟨0, _⟩ => exact mm_hw_l0 _ _
    | ⟨1, _⟩ => exact (dot_S400x128_S128x128_S400x128_1_0_0_1_n_n.lhsIdx_val_of_single rfl _ _).trans hk)
  have er : dot_S400x128_S128x128_S400x128_1_0_0_1_n_n.rhsIdx (ix2 a b) ((ValueIdx.contrEquiv1 dot_S400x128_S128x128_S400x128_1_0_0_1_n_n 128 rfl rfl).symm k) = ix2 k b := funext fun d => Fin.ext (by
    match d with
    | ⟨0, _⟩ => exact (dot_S400x128_S128x128_S400x128_1_0_0_1_n_n.rhsIdx_val_of_single rfl _ _).trans hk
    | ⟨1, _⟩ => exact mm_hw_r1 _ _)
  rw [el, er]

/-- A [1,128] row broadcast down the rows of an [n,128] block reads, at (r, j), the row's entry j. -/
theorem rowBcast_big (b : Vec Ideal S1x128 .f32) (p : Fin 10000) (l : Fin 128) :
    broadcastTo S10000x128 b broadcasts_S1x128_S10000x128 (ix2 p l) = b (ix2 (0 : Fin 1) l) :=
  broadcastTo_apply b broadcasts_S1x128_S10000x128 (ix2 p l) (ix2 (0 : Fin 1) l) (fun a => by
    match a with
    | ⟨0, _⟩ => show (0 : ℕ) = if (1 : ℕ) = 1 then 0 else p.val; rw [if_pos rfl]
    | ⟨1, _⟩ => show l.val = if (128 : ℕ) = 1 then 0 else l.val; rw [if_neg (by decide)])
theorem rowBcast_band (b : Vec Ideal S1x128 .f32) (r : Fin 400) (j : Fin 128) :
    broadcastTo S400x128 b broadcasts_S1x128_S400x128 (ix2 r j) = b (ix2 (0 : Fin 1) j) :=
  broadcastTo_apply b broadcasts_S1x128_S400x128 (ix2 r j) (ix2 (0 : Fin 1) j) (fun a => by
    match a with
    | ⟨0, _⟩ => show (0 : ℕ) = if (1 : ℕ) = 1 then 0 else r.val; rw [if_pos rfl]
    | ⟨1, _⟩ => show j.val = if (128 : ℕ) = 1 then 0 else j.val; rw [if_neg (by decide)])

/-- The first payload: x·W1 + b1 at (p, l). -/
theorem pay1_apply (x : Vec Ideal S10000x128 .f32) (W : Vec Ideal S128x128 .f32) (b : Vec Ideal S1x128 .f32) (p : Fin 10000) (l : Fin 128) :
    k0_pay1 x W b (ix2 p l) = (∑ q : Fin 128, x (ix2 p q) * W (ix2 q l)) + b (ix2 (0 : Fin 1) l) := by
  unfold k0_pay1
  simp only [shapeCast_self]
  rw [addf_apply, mm_xw, rowBcast_big]

/-- The output payload: (Adj row-block)·g at (r, j). -/
theorem pay3_apply (A : Vec Ideal S400x10000 .f32) (g : Vec Ideal S10000x128 .f32) (r : Fin 400) (j : Fin 128) :
    k0_pay3 A g (ix2 r j) = ∑ k : Fin 10000, A (ix2 r k) * g (ix2 k j) := by
  unfold k0_pay3
  exact mm_adj A g r j

/-- The band payload: relu((Adj row-block)·h)·W2 + b2 at (r, j); relu is the maximum with the zero word. -/
theorem pay2_apply (A : Vec Ideal S400x10000 .f32) (h : Vec Ideal S10000x128 .f32) (W : Vec Ideal S128x128 .f32) (b : Vec Ideal S1x128 .f32) (r : Fin 400) (j : Fin 128) :
    k0_pay2 A h W b (ix2 r j)
      = (∑ l : Fin 128, max (∑ p : Fin 10000, A (ix2 r p) * h (ix2 p l)) (Scalar.ofBits (F := Ideal) .f32 0x00000000#32) * W (ix2 l j)) + b (ix2 (0 : Fin 1) j) := by
  unfold k0_pay2
  simp only [shapeCast_self]
  rw [addf_apply, mm_hw, rowBcast_band]
  refine congrArg (· + b (ix2 (0 : Fin 1) j)) (Finset.sum_congr rfl fun l _ => ?_)
  rw [maximumf_apply, mm_adj]
  rfl

end Cert.KernelIdeal.Math

end
-- ==== Proof.KernelIdealValue.lean ====
/-
  The idealized kernel's result array as one function of its arguments, and that function entry by entry.
  A block of x, W1 or W2 is the whole array at every point. Block t of Adj is rows 400·(t mod 25) … + 399, all columns.
  b1 and b2 reach the kernel as [1,128] rows, reshaped from [128] before the region.
  The output's 25 blocks, written back at points 25 … 49, tile the result array: row r lies in the block of point
  25 + r / 400, at local row r mod 400.
-/
import proofs.«154731_g28501402976259_cont_9to1_647_16_alg».proof.Proof.KernelIdealBody
import proofs.«154731_g28501402976259_cont_9to1_647_16_alg».proof.Proof.KernelIdealMath
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Cert.KernelIdeal.Body Cert.KernelIdeal.Math
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The six argument arrays, as the region's core c holds them -/

abbrev aX (c : Dev nD) : Vec Ideal S10000x128 .f32 := m ((c : Thread nD τ).loc main_arg0)
abbrev aAdj (c : Dev nD) : Vec Ideal (⟨2, ![10000, 10000]⟩ : Shape) .f32 := m ((c : Thread nD τ).loc main_arg1)
abbrev aW1 (c : Dev nD) : Vec Ideal S128x128 .f32 := m ((c : Thread nD τ).loc main_arg2)
abbrev aB1 (c : Dev nD) : Vec Ideal (⟨1, ![128]⟩ : Shape) .f32 := m ((c : Thread nD τ).loc main_arg3)
abbrev aW2 (c : Dev nD) : Vec Ideal S128x128 .f32 := m ((c : Thread nD τ).loc main_arg4)
abbrev aB2 (c : Dev nD) : Vec Ideal (⟨1, ![128]⟩ : Shape) .f32 := m ((c : Thread nD τ).loc main_arg5)

/-! ## The printed index maps, decided over the grid -/

theorem idx_whole : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem idx_adj : ∀ t : Fin cfg0.N, win0_5.index t (0 : Fin 2) = t.val % 25 ∧ win0_5.index t (1 : Fin 2) = 0 :=
  (by decide +kernel : ∀ t : Fin grid0.N, _)

/-! ## Each window's block at an entry -/

/-- A block of x is x. -/
theorem blk_x (c : Dev nD) (t : Fin cfg0.N) (p : Fin 10000) (q : Fin 128) :
    iblk m c 0 t (ix2 p q) = aX m c (ix2 p q) := by
  obtain ⟨e0, e1, -⟩ := idx_whole t
  unfold iblk
  show V m c main_arg0 (((cfg0.win 0).blk t).view.emb (ix2 p q)) = _
  rw [V_main_arg0]
  refine congrArg _ (funext fun a => Fin.ext ?_)
  match a with
  | ⟨0, _⟩ => show win0_0.index t (0 : Fin 2) * 10000 + 1 * p.val = p.val; omega
  | ⟨1, _⟩ => show win0_0.index t (1 : Fin 2) * 128 + 1 * q.val = q.val; omega

/-- A block of W1 is W1. -/
theorem blk_w1 (c : Dev nD) (t : Fin cfg0.N) (p : Fin 128) (q : Fin 128) :
    iblk m c 1 t (ix2 p q) = aW1 m c (ix2 p q) := by
  obtain ⟨-, -, e0, e1, -⟩ := idx_whole t
  unfold iblk
  show V m c main_arg2 (((cfg0.win 1).blk t).view.emb (ix2 p q)) = _
  rw [V_main_arg2]
  refine congrArg _ (funext fun a => Fin.ext ?_)
  match a with
  | ⟨0, _⟩ => show win0_1.index t (0 : Fin 2) * 128 + 1 * p.val = p.val; omega
  | ⟨1, _⟩ => show win0_1.index t (1 : Fin 2) * 128 + 1 * q.val = q.val; omega

/-- A block of W2 is W2. -/
theorem blk_w2 (c : Dev nD) (t : Fin cfg0.N) (p : Fin 128) (q : Fin 128) :
    iblk m c 3 t (ix2 p q) = aW2 m c (ix2 p q) := by
  obtain ⟨-, -, -, -, -, -, e0, e1, -⟩ := idx_whole t
  unfold iblk
  show V m c main_arg4 (((cfg0.win 3).blk t).view.emb (ix2 p q)) = _
  rw [V_main_arg4]
  refine congrArg _ (funext fun a => Fin.ext ?_)
  match a with
  | ⟨0, _⟩ => show win0_3.index t (0 : Fin 2) * 128 + 1 * p.val = p.val; omega
  | ⟨1, _⟩ => show win0_3.index t (1 : Fin 2) * 128 + 1 * q.val = q.val; omega

/-- Block t of Adj at (r, k) is Adj at row 400·(t mod 25) + r, column k. -/
theorem blk_adj (c : Dev nD) (t : Fin cfg0.N) (r : Fin 400) (k : Fin 10000) (R : Fin 10000) (hR : R.val = 400 * (t.val % 25) + r.val) :
    iblk m c 5 t (ix2 r k) = aAdj m c (ix2 R k) := by
  obtain ⟨e0, e1⟩ := idx_adj t
  unfold iblk
  show V m c main_arg1 (((cfg0.win 5).blk t).view.emb (ix2 r k)) = _
  rw [V_main_arg1]
  refine congrArg _ (funext fun a => Fin.ext ?_)
  match a with
  | ⟨0, _⟩ => show win0_5.index t (0 : Fin 2) * 400 + 1 * r.val = R.val; omega
  | ⟨1, _⟩ => show win0_5.index t (1 : Fin 2) * 10000 + 1 * k.val = k.val; omega

/-! ## The reshaped biases -/

/-- The region finds b1 as a [1,128] row: the host reshape of the [128] argument. -/
theorem V_b1 (c : Dev nD) : (V m c main_v0 : S1x128.Idx → Elt Ideal .f32) = shapeCast S1x128 (m ((c : Thread nD τ).loc main_arg3)) shapeCasts_S128_S1x128 := by
  dsimp only [V, hostOps0]; after_results; rfl
theorem V_b2 (c : Dev nD) : (V m c main_v1 : S1x128.Idx → Elt Ideal .f32) = shapeCast S1x128 (m ((c : Thread nD τ).loc main_arg5)) shapeCasts_S128_S1x128 := by
  dsimp only [V, hostOps0]; after_results; rfl

/-- A [128] vector reshaped to a [1,128] row reads, at (0, l), its entry l. -/
theorem row_of_vec (v : (⟨1, ![128]⟩ : Shape).Idx → Elt Ideal .f32) (h : (⟨1, ![128]⟩ : Shape).ShapeCasts S1x128) (l : Fin 128) :
    shapeCast S1x128 v h (ix2 (0 : Fin 1) l) = v (ix1 l) := by
  exact (shapeCast_addUnit_apply (n := 1) ![128] v h (ix2 (0 : Fin 1) l)).trans
    (congrArg v (funext fun a => by match a with | ⟨0, _⟩ => rfl))

/-- The block of b1 at (0, l) is b1 at l. -/
theorem blk_b1 (c : Dev nD) (t : Fin cfg0.N) (l : Fin 128) :
    iblk m c 2 t (ix2 (0 : Fin 1) l) = aB1 m c (ix1 l) := by
  obtain ⟨-, -, -, -, e0, e1, -⟩ := idx_whole t
  unfold iblk
  show V m c main_v0 (((cfg0.win 2).blk t).view.emb (ix2 (0 : Fin 1) l)) = _
  have he : ((cfg0.win 2).blk t).view.emb (ix2 (0 : Fin 1) l) = ix2 (0 : Fin 1) l := funext fun a => Fin.ext (by
    match a with
    | ⟨0, _⟩ => show win0_2.index t (0 : Fin 2) * 1 + 1 * 0 = 0; omega
    | ⟨1, _⟩ => show win0_2.index t (1 : Fin 2) * 128 + 1 * l.val = l.val; omega)
  rw [he, V_b1, row_of_vec]

/-- The block of b2 at (0, j) is b2 at j. -/
theorem blk_b2 (c : Dev nD) (t : Fin cfg0.N) (l : Fin 128) :
    iblk m c 4 t (ix2 (0 : Fin 1) l) = aB2 m c (ix1 l) := by
  obtain ⟨-, -, -, -, -, -, -, -, e0, e1⟩ := idx_whole t
  unfold iblk
  show V m c main_v1 (((cfg0.win 4).blk t).view.emb (ix2 (0 : Fin 1) l)) = _
  have he : ((cfg0.win 4).blk t).view.emb (ix2 (0 : Fin 1) l) = ix2 (0 : Fin 1) l := funext fun a => Fin.ext (by
    match a with
    | ⟨0, _⟩ => show win0_4.index t (0 : Fin 2) * 1 + 1 * 0 = 0; omega
    | ⟨1, _⟩ => show win0_4.index t (1 : Fin 2) * 128 + 1 * l.val = l.val; omega)
  rw [he, V_b2, row_of_vec]

/-! ## The three stages at an entry -/

/-- h = x·W1 + b1. -/
theorem hVal_apply (c : Dev nD) (p : Fin 10000) (l : Fin 128) :
    hVal m c (ix2 p l) = (∑ q : Fin 128, aX m c (ix2 p q) * aW1 m c (ix2 q l)) + aB1 m c (ix1 l) := by
  unfold hVal
  rw [pay1_apply]
  simp only [blk_x, blk_w1, blk_b1]

/-- The filled second scratch: relu(Adj·h)·W2 + b2. -/
theorem aggFull_apply (c : Dev nD) (k : Fin 10000) (j : Fin 128) :
    aggFull m c (ix2 k j)
      = (∑ l : Fin 128, max (∑ p : Fin 10000, aAdj m c (ix2 k p) * hVal m c (ix2 p l)) (Scalar.ofBits (F := Ideal) .f32 0x00000000#32)
            * aW2 m c (ix2 l j))
        + aB2 m c (ix1 j) := by
  unfold aggFull bandVal
  generalize hloc : Rect.unitLocal (s := S10000x128) (off := ![400 * (bandOf (ix2 k j)).val, 0]) (size := S400x128.size) (ix2 k j) _ = loc
  have hk : k.val < 10000 := k.isLt
  have h0 : (loc 0).val = k.val - 400 * (k.val / 400) := by rw [← hloc, Rect.unitLocal_val]; rfl
  have h1 : (loc 1).val = j.val := by rw [← hloc, Rect.unitLocal_val]; rfl
  have hix : loc = ix2 (⟨k.val - 400 * (k.val / 400), by omega⟩ : Fin 400) j := funext fun a => Fin.ext (by
    match a with
    | ⟨0, _⟩ => exact h0
    | ⟨1, _⟩ => exact h1)
  rw [hix, pay2_apply, blk_b2]
  refine congrArg (· + _) (Finset.sum_congr rfl fun l _ => ?_)
  rw [blk_w2]
  refine congrArg (fun z => max z _ * _) (Finset.sum_congr rfl fun p _ => ?_)
  rw [blk_adj m c (bandOf (ix2 k j)) ⟨k.val - 400 * (k.val / 400), by omega⟩ p k
    (by show k.val = 400 * ((k.val / 400) % 25) + (k.val - 400 * (k.val / 400)); omega)]

/-- The result array's function: row r, column j is the block of point 25 + r / 400 at local row r mod 400. -/
def outFull (c : Dev nD) : S10000x128.Idx → Elt Ideal .f32 := fun y =>
  outVal m c ⟨25 + (y (0 : Fin 2)).val / 400, by have : (y (0 : Fin 2)).val < 10000 := (y (0 : Fin 2)).isLt; rw [N50]; omega⟩
    (ix2 ⟨(y (0 : Fin 2)).val % 400, Nat.mod_lt _ (by decide)⟩ (y (1 : Fin 2)))

/-- The result: Adj·(filled second scratch). -/
theorem outFull_apply (c : Dev nD) (r : Fin 10000) (j : Fin 128) :
    outFull m c (ix2 r j) = ∑ k : Fin 10000, aAdj m c (ix2 r k) * aggFull m c (ix2 k j) := by
  have hr : r.val < 10000 := r.isLt
  show outVal m c ⟨25 + r.val / 400, _⟩ (ix2 ⟨r.val % 400, _⟩ j) = _
  unfold outVal
  rw [pay3_apply]
  refine Finset.sum_congr rfl fun k _ => ?_
  rw [blk_adj m c ⟨25 + r.val / 400, _⟩ ⟨r.val % 400, _⟩ k r (by show r.val = 400 * ((25 + r.val / 400) % 25) + r.val % 400; omega)]

/-! ## The result array after the run -/

theorem outVal_congr (c : Dev nD) {t t' : Fin cfg0.N} {x x' : S400x128.Idx} (ht : t = t') (hx : x = x') : outVal m c t x = outVal m c t' x' := by
  subst ht; subst hx; rfl

/-- What a phase-1 point writes back is its block of the result's function. -/
theorem flushed_eq (c : Dev nD) (t : Fin cfg0.N) (hf : (cfg0.win 6).flush t = true) :
    (dats m 0 c).flushed 6 t = ((cfg0.win 6).blk t).view.read (Elt Ideal) (outFull m c) := by
  have h25 : 25 ≤ t.val := (flush6_iff t).mp hf
  have hN : t.val < 50 := lt_of_lt_of_eq t.isLt N50
  obtain ⟨e0, e1⟩ := outIndex t h25
  show (cfg0.win 6).cut (grid0.coords t) ((dats m 0 c).after 6 t) = _
  rw [after6]
  funext x
  show outVal m c t x = outFull m c (((cfg0.win 6).blk t).view.emb x)
  have hx0 : (x (0 : Fin 2)).val < 400 := (x (0 : Fin 2)).isLt
  have g0 : ((((cfg0.win 6).blk t).view.emb x) (0 : Fin 2)).val = (t.val - 25) * 400 + (x (0 : Fin 2)).val := by
    show win0_6.index t (0 : Fin 2) * 400 + 1 * (x (0 : Fin 2)).val = _; rw [e0]; omega
  have g1 : ((((cfg0.win 6).blk t).view.emb x) (1 : Fin 2)).val = (x (1 : Fin 2)).val := by
    show win0_6.index t (1 : Fin 2) * 128 + 1 * (x (1 : Fin 2)).val = _; rw [e1]; omega
  unfold outFull
  refine outVal_congr m c (Fin.ext ?_) (funext fun a => Fin.ext ?_)
  · show t.val = 25 + ((((cfg0.win 6).blk t).view.emb x) (0 : Fin 2)).val / 400; rw [g0]; omega
  · match a with
    | ⟨0, _⟩ => show (x (0 : Fin 2)).val = ((((cfg0.win 6).blk t).view.emb x) (0 : Fin 2)).val % 400; rw [g0]; omega
    | ⟨1, _⟩ => show (x (1 : Fin 2)).val = ((((cfg0.win 6).blk t).view.emb x) (1 : Fin 2)).val; rw [g1]

/-- The 25 blocks written back through phase 1 tile the result array, so it ends holding that function. -/
theorem final (c : Dev nD) : (dats m 0 c).arrAt 6 cfg0.N = outFull m c :=
  (dats m 0 c).arrAt_eq_of_cover 6 (outFull m c) (flushed_eq m c) fun i => by
    have hi0 : (i (0 : Fin 2)).val < 10000 := (i (0 : Fin 2)).isLt
    have hi1 : (i (1 : Fin 2)).val < 128 := (i (1 : Fin 2)).isLt
    have ht : 25 + (i (0 : Fin 2)).val / 400 < cfg0.N := by rw [N50]; omega
    refine ⟨⟨25 + (i (0 : Fin 2)).val / 400, ht⟩, (flush6_iff _).mpr (by show 25 ≤ 25 + (i (0 : Fin 2)).val / 400; omega), ?_⟩
    obtain ⟨e0, e1⟩ := outIndex ⟨25 + (i (0 : Fin 2)).val / 400, ht⟩ (by show 25 ≤ 25 + (i (0 : Fin 2)).val / 400; omega)
    show i ∈ ((View.whole main_v2).slice (win0_6.rect ⟨25 + (i (0 : Fin 2)).val / 400, ht⟩)).set
    rw [View.set_slice_whole, Rect.mem_set_unit]
    intro a
    match a with
    | ⟨0, _⟩ =>
      show win0_6.index ⟨25 + (i (0 : Fin 2)).val / 400, ht⟩ (0 : Fin 2) * 400 ≤ (i (0 : Fin 2)).val ∧ (i (0 : Fin 2)).val < win0_6.index ⟨25 + (i (0 : Fin 2)).val / 400, ht⟩ (0 : Fin 2) * 400 + 400
      rw [e0]; show (25 + (i (0 : Fin 2)).val / 400 - 25) * 400 ≤ _ ∧ _ < (25 + (i (0 : Fin 2)).val / 400 - 25) * 400 + 400; omega
    | ⟨1, _⟩ =>
      show win0_6.index ⟨25 + (i (0 : Fin 2)).val / 400, ht⟩ (1 : Fin 2) * 128 ≤ (i (1 : Fin 2)).val ∧ (i (1 : Fin 2)).val < win0_6.index ⟨25 + (i (0 : Fin 2)).val / 400, ht⟩ (1 : Fin 2) * 128 + 128
      rw [e1]; omega

/-! ## The run, with the result named -/

/-- Every weakly fair execution terminates with the result array at Adj·(relu(Adj·(x·W1 + b1))·W2 + b2), read through
    `outFull`, and the six argument arrays unchanged. -/
theorem run : θ_run defs (onTc (τ := τ) (main (F := Ideal))) ⟨m, fun _ => 0, ρ⟩ (fun r => ∀ c : Dev nD,
      r.2.mem ((c.tc : Thread nD τ).loc main_v2) = outFull m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 0).trans (((dats m 0 c).arrAt_in 0 rfl _).trans ((A_eq m c 0).trans (V_main_arg0 m c))),
      ((h c).1 5).trans (((dats m 0 c).arrAt_in 5 rfl _).trans ((A_eq m c 5).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main m ρ)

end Cert.KernelIdeal.KValue

end
-- ==== Proof.RefValue.lean ====
/-
  The reference program's stages read entry by entry at the extended reals, in row/column coordinates:
    v3 (p, l) = ∑_q x(p,q)·W1(q,l) + b1(l)                              (x·W1 + b1)
    v9 (k, j) = ∑_l max(∑_p Adj(k,p)·v3(p,l), 0)·W2(l,j) + b2(j)         (relu(Adj·v3)·W2 + b2)
    v10(r, j) = ∑_k Adj(r,k)·v9(k,j)                                     (Adj·v9)
  Each product is a finite sum over the contracted axis; a bias broadcast down the rows reads its column's entry.
-/
import proofs.«154731_g28501402976259_cont_9to1_647_16_alg».proof.Defs
import proofs.«154731_g28501402976259_cont_9to1_647_16_alg».proof.Proof.Gen.ReferenceIdeal.Read
import Idealize.ShloMosaic.Lib.ValueIdx

noncomputable section

namespace Cert.ReferenceIdeal.RefValue

open Cert.ReferenceIdeal Cert.ReferenceIdeal.Read
open Idealize.ShloMosaic Idealize.ShloMosaic.ValueIdx

/-! ## The operand indices of each product and broadcast, in coordinates -/

theorem lidx0 (p : Fin 10000) (l q : Fin 128) : lidx_main_v0 (ix2 p l) q = ix2 p q :=
  funext fun a => Fin.ext (by match a with | ⟨0, _⟩ => rfl | ⟨1, _⟩ => rfl)
theorem ridx0 (p : Fin 10000) (l q : Fin 128) : ridx_main_v0 (ix2 p l) q = ix2 q l :=
  funext fun a => Fin.ext (by match a with | ⟨0, _⟩ => rfl | ⟨1, _⟩ => rfl)
theorem lidx4 (k p : Fin 10000) (l : Fin 128) : lidx_main_v4 (ix2 k l) p = ix2 k p :=
  funext fun a => Fin.ext (by match a with | ⟨0, _⟩ => rfl | ⟨1, _⟩ => rfl)
theorem ridx4 (k p : Fin 10000) (l : Fin 128) : ridx_main_v4 (ix2 k l) p = ix2 p l :=
  funext fun a => Fin.ext (by match a with | ⟨0, _⟩ => rfl | ⟨1, _⟩ => rfl)
theorem lidx6 (k : Fin 10000) (j l : Fin 128) : lidx_main_v6 (ix2 k j) l = ix2 k l :=
  funext fun a => Fin.ext (by match a with | ⟨0, _⟩ => rfl | ⟨1, _⟩ => rfl)
theorem ridx6 (k : Fin 10000) (j l : Fin 128) : ridx_main_v6 (ix2 k j) l = ix2 l j :=
  funext fun a => Fin.ext (by match a with | ⟨0, _⟩ => rfl | ⟨1, _⟩ => rfl)
theorem lidx10 (r k : Fin 10000) (j : Fin 128) : lidx_main_v10 (ix2 r j) k = ix2 r k :=
  funext fun a => Fin.ext (by match a with | ⟨0, _⟩ => rfl | ⟨1, _⟩ => rfl)
theorem ridx10 (r k : Fin 10000) (j : Fin 128) : ridx_main_v10 (ix2 r j) k = ix2 k j :=
  funext fun a => Fin.ext (by match a with | ⟨0, _⟩ => rfl | ⟨1, _⟩ => rfl)
theorem idxRow2 (p : Fin 10000) (l : Fin 128) : idx_main_v2 (ix2 p l) = ix2 (0 : Fin 1) l :=
  funext fun a => Fin.ext (by match a with | ⟨0, _⟩ => rfl | ⟨1, _⟩ => rfl)
theorem idxRow8 (p : Fin 10000) (l : Fin 128) : idx_main_v8 (ix2 p l) = ix2 (0 : Fin 1) l :=
  funext fun a => Fin.ext (by match a with | ⟨0, _⟩ => rfl | ⟨1, _⟩ => rfl)
theorem idxVec1 (l : Fin 128) : idx_main_v1 (ix2 (0 : Fin 1) l) = ix1 l :=
  funext fun a => Fin.ext (by match a with | ⟨0, _⟩ => rfl)
theorem idxVec7 (l : Fin 128) : idx_main_v7 (ix2 (0 : Fin 1) l) = ix1 l :=
  funext fun a => Fin.ext (by match a with | ⟨0, _⟩ => rfl)

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-! ## The three stages -/

/-- x·W1 + b1 at (p, l). -/
theorem v3_apply (p : Fin 10000) (l : Fin 128) :
    val_main_v3 (F := Ideal) x0 x2 x3 (ix2 p l) = (∑ q : Fin 128, x0 (ix2 p q) * x2 (ix2 q l)) + x3 (ix1 l) := by
  rw [val_main_v3_apply, val_main_v0_apply, val_main_v2_apply, val_main_v1_apply]
  simp only [lidx0, ridx0, idxRow2, idxVec1]
  rfl

/-- relu(Adj·v3)·W2 + b2 at (k, j); relu is the maximum with the zero word. -/
theorem v9_apply (k : Fin 10000) (j : Fin 128) :
    val_main_v9 (F := Ideal) x0 x1 x2 x3 x4 x5 (ix2 k j)
      = (∑ l : Fin 128, max (∑ p : Fin 10000, x1 (ix2 k p) * val_main_v3 (F := Ideal) x0 x2 x3 (ix2 p l)) (FloatOps.ofBits (F := Ideal) .f32 0x00000000#32)
            * x4 (ix2 l j))
        + x5 (ix1 j) := by
  rw [val_main_v9_apply, val_main_v6_apply, val_main_v8_apply, val_main_v7_apply]
  simp only [lidx6, ridx6, idxRow8, idxVec7, val_main_v5_apply, val_main_v4_apply, lidx4, ridx4, val_main_call0_v0_apply, val_main_call0_cst_apply]
  rfl

/-- Adj·v9 at (r, j). -/
theorem v10_apply (r : Fin 10000) (j : Fin 128) :
    val_main_v10 (F := Ideal) x0 x1 x2 x3 x4 x5 (ix2 r j)
      = ∑ k : Fin 10000, x1 (ix2 r k) * val_main_v9 (F := Ideal) x0 x1 x2 x3 x4 x5 (ix2 k j) := by
  rw [val_main_v10_apply]
  simp only [lidx10, ridx10]

end Cert.ReferenceIdeal.RefValue

end
-- ==== Proof.Bridge.lean ====
/-
  The idealized kernel and the idealized reference compute one function.
  Both are Adj·(relu(Adj·(x·W1 + b1))·W2 + b2) with the same grouping: entry by entry each stage is the same finite sum
  of the same entries of the arguments, so no law beyond reading both sides is needed, and nothing about finiteness.
-/
import proofs.«154731_g28501402976259_cont_9to1_647_16_alg».proof.Proof.KernelIdealValue
import proofs.«154731_g28501402976259_cont_9to1_647_16_alg».proof.Proof.RefValue

noncomputable section

namespace Cert.Proof.Bridge

open Cert.KernelIdeal.Body Cert.KernelIdeal.KValue
open Idealize.ShloMosaic Idealize.ShloMosaic.ValueIdx Idealize.SL.Sem

variable (m : (ℓ : Loc Cert.KernelIdeal.nD Cert.KernelIdeal.τ Cert.KernelIdeal.sig) → Buf (Elt Ideal) ℓ)

/-- The first scratch holds the reference's x·W1 + b1. -/
theorem h_eq (c : Dev Cert.KernelIdeal.nD) :
    hVal m c = Cert.ReferenceIdeal.Read.val_main_v3 (F := Ideal) (aX m c) (aW1 m c) (aB1 m c) := by
  funext y
  obtain ⟨p, l, rfl⟩ : ∃ (p : Fin 10000) (l : Fin 128), y = ix2 p l := ⟨y 0, y 1, eq_ix2 y⟩
  rw [hVal_apply, Cert.ReferenceIdeal.RefValue.v3_apply]

/-- The filled second scratch holds the reference's relu(Adj·v3)·W2 + b2. -/
theorem agg_eq (c : Dev Cert.KernelIdeal.nD) :
    aggFull m c = Cert.ReferenceIdeal.Read.val_main_v9 (F := Ideal) (aX m c) (aAdj m c) (aW1 m c) (aB1 m c) (aW2 m c) (aB2 m c) := by
  funext y
  obtain ⟨k, j, rfl⟩ : ∃ (k : Fin 10000) (j : Fin 128), y = ix2 k j := ⟨y 0, y 1, eq_ix2 y⟩
  rw [aggFull_apply, Cert.ReferenceIdeal.RefValue.v9_apply, h_eq]

/-- The kernel's result array holds the reference's result. -/
theorem out_eq (c : Dev Cert.KernelIdeal.nD) :
    outFull m c = Cert.ReferenceIdeal.Read.val_main_v10 (F := Ideal) (aX m c) (aAdj m c) (aW1 m c) (aB1 m c) (aW2 m c) (aB2 m c) := by
  funext y
  obtain ⟨r, j, rfl⟩ : ∃ (r : Fin 10000) (j : Fin 128), y = ix2 r j := ⟨y 0, y 1, eq_ix2 y⟩
  rw [outFull_apply, Cert.ReferenceIdeal.RefValue.v10_apply, agg_eq]

end Cert.Proof.Bridge

end
-- ==== Proof.lean ====
/-
  The certificate of a two-layer dense graph convolution, out = Adj·(relu(Adj·(x·W1 + b1))·W2 + b2), computed by one
  kernel over a 2 × 25 grid against the same formula written with whole-matrix products.

  The kernel streams Adj in row-blocks of 400. Phase 0 (points 0 … 24): point 0 first stores h = x·W1 + b1 in a scratch
  buffer; every point i stores rows 400·i … 400·i + 399 of relu(Adj·h)·W2 + b2 into a second scratch. Phase 1 (points
  25 … 49): point 25 + i stores rows 400·i … of Adj·(second scratch) as the output block, which is then written back.

  The three frames: each program runs, faults nowhere and leaves its six arguments as they were. For the two kernel
  programs this is the run of the whole grid under an invariant naming what the scratch buffers hold between points
  (the same text at both float instances); for the reference it is its straight-line run with the result dropped.
  No float operation was rewritten by the idealization, so there is nothing to preserve beyond the text itself.
  At the extended reals both programs' results are, entry by entry, the same nested finite sums of the same entries of
  the arguments; the kernel's blocks tile the result array, and row r lies in the block of point 25 + r / 400.
-/
import proofs.«154731_g28501402976259_cont_9to1_647_16_alg».proof.Defs
import proofs.«154731_g28501402976259_cont_9to1_647_16_alg».proof.Proof.Gen.Kernel
import proofs.«154731_g28501402976259_cont_9to1_647_16_alg».proof.Proof.Gen.KernelIdeal
import proofs.«154731_g28501402976259_cont_9to1_647_16_alg».proof.Proof.Gen.ReferenceIdeal
import proofs.«154731_g28501402976259_cont_9to1_647_16_alg».proof.Proof.Gen.ReferenceIdeal.Run
import proofs.«154731_g28501402976259_cont_9to1_647_16_alg».proof.Proof.Gen.Pre_finite_inputs
import proofs.«154731_g28501402976259_cont_9to1_647_16_alg».proof.Proof.KernelBody
import proofs.«154731_g28501402976259_cont_9to1_647_16_alg».proof.Proof.KernelIdealBody
import proofs.«154731_g28501402976259_cont_9to1_647_16_alg».proof.Proof.KernelIdealValue
import proofs.«154731_g28501402976259_cont_9to1_647_16_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Body.frame m ρ

/-- So does its reading at the extended reals. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel's is its 25 output
    blocks tiled, the reference's its composed term, and the two are one function of the arguments. -/
theorem algebraic : Cert.algebraic_KernelIdeal_ReferenceIdeal := by
  intro m ρ m' ρ' _ hagree
  refine ⟨fun c => Cert.KernelIdeal.KValue.outFull m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact (Cert.Proof.Bridge.out_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
